-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x8x128 : Shape := ⟨3, ![32768, 8, 128]⟩
abbrev S512x256 : Shape := ⟨2, ![512, 256]⟩
abbrev S1x512 : Shape := ⟨2, ![1, 512]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x8x128 : S_.BroadcastsInDim S32768x8x128 (![] : Fin 0 → Fin S32768x8x128.rank)
  reducesTo_S32768x8x128_S_d0_1_2 : S32768x8x128.ReducesTo [0, 1, 2] S_
  bcast_S_S512x256 : S_.BroadcastsInDim S512x256 (![] : Fin 0 → Fin S512x256.rank)
  reducesTo_S512x256_S_d0_1 : S512x256.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  main_v23

def fn {F : FTy → Type} [FloatOps F] (main_arg0 : FVec F S32768x128 .f32) (main_arg1 : FVec F S32768x8x128 .f32) (main_arg2 : FVec F S32768x8x128 .f32) (main_arg3 : FVec F S512x256 .f32) (main_arg4 : FVec F S1x512 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x8x128 .f32 := Host.absf main_arg1
  let main_cst_0 : FVec F S_ .f32 := constant S_ .f32 0x7F800000#32
  let main_v5 : FVec F S32768x8x128 .f32 := broadcastInDim S32768x8x128 ![] bcast_S_S32768x8x128 main_cst_0
  let main_v6 : IVec S32768x8x128 1 := cmpf .olt main_v4 main_v5
  let main_c_1 : IVec S_ 1 := constantI S_ 1 1#1
  let main_v7 : IVec S_ 1 := (fun x v => Host.reduce IntOp.andi x v reducesTo_S32768x8x128_S_d0_1_2 h_S_) main_v6 main_c_1
  let main_v8 : IVec S_ 1 := andi main_v3 main_v7
  let main_v9 : FVec F S32768x8x128 .f32 := Host.absf main_arg2
  let main_cst_2 : FVec F S_ .f32 := constant S_ .f32 0x7F800000#32
  let main_v10 : FVec F S32768x8x128 .f32 := broadcastInDim S32768x8x128 ![] bcast_S_S32768x8x128 main_cst_2
  let main_v11 : IVec S32768x8x128 1 := cmpf .olt main_v9 main_v10
  let main_c_3 : IVec S_ 1 := constantI S_ 1 1#1
  let main_v12 : IVec S_ 1 := (fun x v => Host.reduce IntOp.andi x v reducesTo_S32768x8x128_S_d0_1_2 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S32768x128 : Shape := ⟨2, ![32768, 128]⟩
abbrev S32768x8x128 : Shape := ⟨3, ![32768, 8, 128]⟩
abbrev S512x256 : Shape := ⟨2, ![512, 256]⟩
abbrev S1x512 : Shape := ⟨2, ![1, 512]⟩
abbrev S512x128 : Shape := ⟨2, ![512, 128]⟩
abbrev S128x512 : Shape := ⟨2, ![128, 512]⟩
abbrev S1024x128 : Shape := ⟨2, ![1024, 128]⟩
abbrev S1024x8x128 : Shape := ⟨3, ![1024, 8, 128]⟩
abbrev S1024x512 : Shape := ⟨2, ![1024, 512]⟩
abbrev S1024x1 : Shape := ⟨2, ![1024, 1]⟩
abbrev S1024x1x128 : Shape := ⟨3, ![1024, 1, 128]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S32768x128, .f32⟩
  | .hbm, ⟨1, _⟩ => ⟨S32768x8x128, .f32⟩
  | .hbm, ⟨2, _⟩ => ⟨S32768x8x128, .f32⟩
  | .hbm, ⟨3, _⟩ => ⟨S512x256, .f32⟩
  | .hbm, ⟨4, _⟩ => ⟨S1x512, .f32⟩
  | .hbm, ⟨5, _⟩ => ⟨S512x128, .f32⟩
  | .hbm, ⟨6, _⟩ => ⟨S128x512, .f32⟩
  | .hbm, ⟨7, _⟩ => ⟨S512x128, .f32⟩
  | .hbm, ⟨8, _⟩ => ⟨S128x512, .f32⟩
  | .hbm, ⟨9, _⟩ => ⟨S32768x128, .f32⟩
  | .local _ .vmem, ⟨0, _⟩ => ⟨S1024x128, .f32⟩
  | .local _ .vmem, ⟨1, _⟩ => ⟨S1024x128, .f32⟩
  | .local _ .vmem, ⟨2, _⟩ => ⟨S1024x8x128, .f32⟩
  | .local _ .vmem, ⟨3, _⟩ => ⟨S1024x8x128, .f32⟩
  | .local _ .vmem, ⟨4, _⟩ => ⟨S1024x8x128, .f32⟩
  | .local _ .vmem, ⟨5, _⟩ => ⟨S1024x8x128, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S1024x128, .f32⟩
  | .local _ .vmem, ⟨10, _⟩ => ⟨S1024x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S512x256_S512x128_0_0 : S512x256.Slices ![0, 0] S512x128
  transposes_S512x128_S128x512_1_0 : S512x128.Transposes [1, 0] S128x512
  slices_S512x256_S512x128_0_128 : S512x256.Slices ![0, 128] S512x128
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  inb_S1024x8x128_S1024x1x128_0_0_0 : ∀ a, (![0, 0, 0] : Fin 3 → Nat) a + S1024x1x128.size a ≤ S1024x8x128.size a
  h_S1024x1x128 : 0 < S1024x1x128.numel
  shapeCasts_S1024x1x128_S1024x128 : S1024x1x128.ShapeCasts S1024x128
  broadcasts_S1x512_S1024x512 : S1x512.Broadcasts S1024x512
  reduces_S1024x512_S1024 : S1024x512.Reduces [1] S1024
  shapeCasts_S1024_S1024x1 : S1024.ShapeCasts S1024x1
  broadcasts_S1024x1_S1024x128 : S1024x1.Broadcasts S1024x128
  inb_S1024x8x128_S1024x1x128_0_1_0 : ∀ a, (![0, 1, 0] : Fin 3 → Nat) a + S1024x1x128.size a ≤ S1024x8x128.size a
  inb_S1024x8x128_S1024x1x128_0_2_0 : ∀ a, (![0, 2, 0] : Fin 3 → Nat) a + S1024x1x128.size a ≤ S1024x8x128.size a
  inb_S1024x8x128_S1024x1x128_0_3_0 : ∀ a, (![0, 3, 0] : Fin 3 → Nat) a + S1024x1x128.size a ≤ S1024x8x128.size a
  inb_S1024x8x128_S1024x1x128_0_4_0 : ∀ a, (![0, 4, 0] : Fin 3 → Nat) a + S1024x1x128.size a ≤ S1024x8x128.size a
  inb_S1024x8x128_S1024x1x128_0_5_0 : ∀ a, (![0, 5, 0] : Fin 3 → Nat) a + S1024x1x128.size a ≤ S1024x8x128.size a
  inb_S1024x8x128_S1024x1x128_0_6_0 : ∀ a, (![0, 6, 0] : Fin 3 → Nat) a + S1024x1x128.size a ≤ S1024x8x128.size a
  inb_S1024x8x128_S1024x1x128_0_7_0 : ∀ a, (![0, 7, 0] : Fin 3 → Nat) a + S1024x1x128.size a ≤ S1024x8x128.size a
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8x128.size a ≤ S32768x8x128.size a
  hwx0_1 : ∀ i : grid0.Coords, EltTy.bits .f32 = 32 ∨ (Rect.block (s := S32768x8x128) S1024x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x8x128.size a ≤ S32768x8x128.size a
  hwx0_2 : ∀ i : grid0.Coords, EltTy.bits .f32 = 32 ∨ (Rect.block (s := S32768x8x128) S1024x8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S32768x128.size a
  hwx0_6 : ∀ i : grid0.Coords, EltTy.bits .f32 = 32 ∨ (Rect.block (s := S32768x128) S1024x128.size (cc0_transform_6 i) (hinb0_6 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768x8x128 : Shape := ⟨3, ![32768, 8, 128]⟩
abbrev S512x256 : Shape := ⟨2, ![512, 256]⟩
abbrev S1x512 : Shape := ⟨2, ![1, 512]⟩
abbrev S32768x1x128 : Shape := ⟨3, ![32768, 1, 128]⟩
abbrev S32768x8x256 : Shape := ⟨3, ![32768, 8, 256]⟩
abbrev S32768x8x512 : Shape := ⟨3, ![32768, 8, 512]⟩
abbrev S_ : Shape := ⟨0, ![]⟩
abbrev S32768x8x1 : Shape := ⟨3, ![32768, 8, 1]⟩
abbrev S32768x1 : Shape := ⟨2, ![32768, 1]⟩
abbrev S32768x1x1 : Shape := ⟨3, ![32768, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x8x128, .f32⟩
  | .hbm, ⟨2, _⟩ => ⟨S32768x8x128, .f32⟩
  | .hbm, ⟨3, _⟩ => ⟨S512x256, .f32⟩
  | .hbm, ⟨4, _⟩ => ⟨S1x512, .f32⟩
  | .hbm, ⟨5, _⟩ => ⟨S32768x1x128, .f32⟩
  | .hbm, ⟨6, _⟩ => ⟨S32768x8x128, .f32⟩
  | .hbm, ⟨7, _⟩ => ⟨S32768x8x256, .f32⟩
  | .hbm, ⟨8, _⟩ => ⟨S32768x8x512, .f32⟩
  | .hbm, ⟨9, _⟩ => ⟨S_, .f32⟩
  | .hbm, ⟨10, _⟩ => ⟨S32768x8x512, .f32⟩
  | .hbm, ⟨11, _⟩ => ⟨S32768x8x512, .f32⟩
  | .hbm, ⟨12, _⟩ => ⟨S32768x8x1, .f32⟩
  | .hbm, ⟨13, _⟩ => ⟨S_, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1x1, .f32⟩
  | .hbm, ⟨19, _⟩ => ⟨S32768x8x1, .f32⟩
  | .hbm, ⟨20, _⟩ => ⟨S32768x8x1, .f32⟩
  | .hbm, ⟨21, _⟩ => ⟨S32768x8x1, .f32⟩
  | .hbm, ⟨22, _⟩ => ⟨S_, .f32⟩
  | .hbm, ⟨23, _⟩ => ⟨S32768x1, .f32⟩
  | .hbm, ⟨24, _⟩ => ⟨S32768x1x1, .f32⟩
  | .hbm, ⟨25, _⟩ => ⟨S32768x8x1, .f32⟩
  | .hbm, ⟨26, _⟩ => ⟨S32768x8x1, .f32⟩
  | .hbm, ⟨27, _⟩ => ⟨S32768x8x128, .f32⟩
  | .hbm, ⟨28, _⟩ => ⟨S32768x8x128, .f32⟩
  | .hbm, ⟨29, _⟩ => ⟨S_, .f32⟩
  | .hbm, ⟨30, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S32768x128_S32768x1x128_0_2 : S32768x128.BroadcastsInDim S32768x1x128 (![0, 2] : Fin 2 → Fin S32768x1x128.rank)
  bcast_S32768x1x128_S32768x8x128_0_1_2 : S32768x1x128.BroadcastsInDim S32768x8x128 (![0, 1, 2] : Fin 3 → Fin S32768x8x128.rank)
  concatenates_S32768x8x128_S32768x8x128_S32768x8x256_d2 : Shape.Concatenates [S32768x8x128, S32768x8x128] S32768x8x256 2
  bcast_S_S32768x8x512 : S_.BroadcastsInDim S32768x8x512 (![] : Fin 0 → Fin S32768x8x512.rank)
  reducesTo_S32768x8x1_S32768x1_d1 : S32768x8x1.ReducesTo [1] S32768x1
  h_S_ : 0 < S_.numel
  bcast_S_S32768x1 : S_.BroadcastsInDim S32768x1 (![] : Fin 0 → Fin S32768x1.rank)
  bcast_S32768x1_S32768x1x1_0_2 : S32768x1.BroadcastsInDim S32768x1x1 (![0, 2] : Fin 2 → Fin S32768x1x1.rank)
  bcast_S32768x1x1_S32768x8x1_0_1_2 : S32768x1x1.BroadcastsInDim S32768x8x1 (![0, 1, 2] : Fin 3 → Fin S32768x8x1.rank)
  bcast_S32768x8x1_S32768x8x128_0_1_2 : S32768x8x1.BroadcastsInDim S32768x8x128 (![0, 1, 2] : Fin 3 → Fin S32768x8x128.rank)
  reducesTo_S32768x8x128_S32768x128_d1 : S32768x8x128.ReducesTo [1] S32768x128
  dot_S32768x8x256_S512x256_S32768x8x512_2_1_01_0_n_n_wf : DotDims.WF S32768x8x256 S512x256 S32768x8x512 [2] [1] [0, 1] [0] [] []
  dot_S32768x8x512_S1x512_S32768x8x1_2_1_01_0_n_n_wf : DotDims.WF S32768x8x512 S1x512 S32768x8x1 [2] [1] [0, 1] [0] [] []

variable [Facts₀]

def dot_S32768x8x256_S512x256_S32768x8x512_2_1_01_0_n_n : DotDims S32768x8x256 S512x256 S32768x8x512 where
  lhsContracting := [2]
  rhsContracting := [1]
  lhsNonContracting := [0, 1]
  rhsNonContracting := [0]
  lhsBatch := []
  rhsBatch := []
  wf := dot_S32768x8x256_S512x256_S32768x8x512_2_1_01_0_n_n_wf
def dot_S32768x8x512_S1x512_S32768x8x1_2_1_01_0_n_n : DotDims S32768x8x512 S1x512 S32768x8x1 where
  lhsContracting := [2]
  rhsContracting := [1]
  lhsNonContracting := [0, 1]
  rhsNonContracting := [0]
  lhsBatch := []
  rhsBatch := []
  wf := dot_S32768x8x512_S1x512_S32768x8x1_2_1_01_0_n_n_wf

class Facts : Prop extends Facts₀ where

variable [Facts]
-- ==== Proof.KernelScore.lean ====
/-
  The kernel body's score of one row at one hop, read as a plain double sum.

  For a row `r` of the block the body forms, per hop, the hidden vector  relu(A[r,·] + B[r,·])  where `A = q · W1q` is
  shared by the hops and `B = k_hop · W1k` is the hop's own projection (both matrix products accumulate into a zero
  splat, so each entry is the bare sum over the 128 contracted features), and contracts it with the row vector `w2`
  by a lane sum over the 512 hidden units:   score r = ∑ₕ max (A[r,h] + ∑ⱼ k[r,j] · W1k[j,h]) 0 · w2[h].
  Changes of float format are the identity on the extended reals, and the re-layouts (dropping the hop axis of a
  loaded slab, turning the reduced column into a [rows, 1] array, repeating `w2` over the rows) only move indices.
-/
import proofs.«137010_j85418309583437_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelRow

open Cert.KernelIdeal Cert.KernelIdeal.Gen Idealize.ShloMosaic Idealize.ShloMosaic.ValueIdx

/-! ## Re-layouts read at an index -/

variable {α : Type}

/-- A [rows, 1] column repeated over the 128 lanes reads, at (r, d), the column at r. -/
theorem bcast_col (c : S1024x1.Idx → α) (r : Fin 1024) (d : Fin 128) :
    broadcastTo S1024x128 c broadcasts_S1024x1_S1024x128 (ix2 r d) = c (ix2 r (0 : Fin 1)) :=
  broadcastTo_apply c _ (ix2 r d) (ix2 r (0 : Fin 1)) fun a => match a with
    | ⟨0, _⟩ => by show r.val = if (1024 : Nat) = 1 then 0 else r.val; rw [if_neg (by decide)]
    | ⟨1, _⟩ => by show 0 = if (1 : Nat) = 1 then 0 else d.val; rw [if_pos rfl]

/-- A loaded [rows, 1, 128] slab with its unit hop axis dropped reads, at (r, d), the slab at (r, 0, d). -/
theorem cast_slab (l : S1024x1x128.Idx → α) (r : Fin 1024) (d : Fin 128) :
    shapeCast S1024x128 l shapeCasts_S1024x1x128_S1024x128 (ix2 r d) = l (ix3 r (0 : Fin 1) d) :=
  shapeCast_apply l _ (ix2 r d) (ix3 r (0 : Fin 1) d) (by
    rw [Shape.rowMajor_val_three, Shape.rowMajor_val_two]
    show (r.val * 1 + 0) * 128 + d.val = r.val * 128 + d.val
    omega)

/-- A [rows] vector recast as a [rows, 1] column reads, at (r, 0), the vector at r. -/
theorem cast_col (u : S1024.Idx → α) (r : Fin 1024) :
    shapeCast S1024x1 u shapeCasts_S1024_S1024x1 (ix2 r (0 : Fin 1)) = u (ix1 r) :=
  shapeCast_apply u _ (ix2 r (0 : Fin 1)) (ix1 r) (by
    rw [Shape.rowMajor_val_one, Shape.rowMajor_val_two]
    show r.val = r.val * 1 + 0
    omega)

/-! ## One hop's projection and the score -/

/-- The operand indices of the [rows,128] · [128,512] product at an output index: the row and the contracted feature
    on the left, the contracted feature and the hidden unit on the right. -/
theorem lhs_0 (i : S1024x512.Idx) (q : dot_S1024x128_S128x512_S1024x512_1_0_0_1_n_n.contr.Idx) : (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_1 (i : S1024x512.Idx) (q : dot_S1024x128_S128x512_S1024x512_1_0_0_1_n_n.contr.Idx) : (dot_S1024x128_S128x512_S1024x512_1_0_0_1_n_n.lhsIdx i q 1).val = (q ⟨0, by decide⟩).val :=
  dot_S1024x128_S128x512_S1024x512_1_0_0_1_n_n.lhsIdx_val_of_single rfl i q
theorem rhs_0 (i : S1024x512.Idx) (q : dot_S1024x128_S128x512_S1024x512_1_0_0_1_n_n.contr.Idx) : (dot_S1024x128_S128x512_S1024x512_1_0_0_1_n_n.rhsIdx i q 0).val = (q ⟨0, by decide⟩).val :=
  dot_S1024x128_S128x512_S1024x512_1_0_0_1_n_n.rhsIdx_val_of_single rfl i q
theorem rhs_1 (i : S1024x512.Idx) (q : dot_S1024x128_S128x512_S1024x512_1_0_0_1_n_n.contr.Idx) : (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- A [rows,128] · [128,512] product into a zero splat: entry (r, h) is the sum over the 128 features. -/
theorem matmul_apply (a : FVec Ideal S1024x128 .bf16) (w : FVec Ideal S128x512 .bf16) (r : Fin 1024) (h : Fin 512) :
    matmul dot_S1024x128_S128x512_S1024x512_1_0_0_1_n_n none a w (constant S1024x512 .f32 0x00000000#32) (ix2 r h) = ∑ j : Fin 128, a (ix2 r j) * w (ix2 j h) := by
  show FloatOps.matmul dot_S1024x128_S128x512_S1024x512_1_0_0_1_n_n none a w (constant S1024x512 .f32 0x00000000#32) (ix2 r h) = _
  rw [Ideal.matmul_constant_zero_apply, ← Equiv.sum_comp (ValueIdx.contrEquiv1 dot_S1024x128_S128x512_S1024x512_1_0_0_1_n_n 128 rfl rfl).symm]
  refine Finset.sum_congr rfl fun j _ => ?_
  have hj := ValueIdx.contrEquiv1_symm_val dot_S1024x128_S128x512_S1024x512_1_0_0_1_n_n 128 rfl rfl j
  have el : dot_S1024x128_S128x512_S1024x512_1_0_0_1_n_n.lhsIdx (ix2 r h) ((ValueIdx.contrEquiv1 dot_S1024x128_S128x512_S1024x512_1_0_0_1_n_n 128 rfl rfl).symm j) = ix2 r j := funext fun a => Fin.ext (by
    match a with
    | ⟨0, _⟩ => exact lhs_0 _ _
    | ⟨1, _⟩ => exact (lhs_1 _ _).trans hj)
  have er : dot_S1024x128_S128x512_S1024x512_1_0_0_1_n_n.rhsIdx (ix2 r h) ((ValueIdx.contrEquiv1 dot_S1024x128_S128x512_S1024x512_1_0_0_1_n_n 128 rfl rfl).symm j) = ix2 j h := funext fun a => Fin.ext (by
    match a with
    | ⟨0, _⟩ => exact (rhs_0 _ _).trans hj
    | ⟨1, _⟩ => exact rhs_1 _ _)
  rw [el, er]

/-- The hop's projection: entry (r, h) of  k_hop · W1k  is the sum over the 128 features of the loaded slab's row. -/
theorem proj_apply (w : FVec Ideal S128x512 .bf16) (l : Vec Ideal S1024x1x128 .f32) (r : Fin 1024) (h : Fin 512) :
    truncf .bf16 (matmul dot_S1024x128_S128x512_S1024x512_1_0_0_1_n_n none
        (truncf .bf16 (shapeCast S1024x128 l shapeCasts_S1024x1x128_S1024x128) bitsLt_bf16_f32) w
        (constant S1024x512 .f32 0x00000000#32)) bitsLt_bf16_f32 (ix2 r h)
      = ∑ j : Fin 128, l (ix3 r (0 : Fin 1) j) * w (ix2 j h) := by
  refine (matmul_apply _ w r h).trans (Finset.sum_congr rfl fun j _ => ?_)
  show shapeCast S1024x128 l shapeCasts_S1024x1x128_S1024x128 (ix2 r j) * w (ix2 j h) = _
  rw [cast_slab]

/-- The lane sum that contracts the hidden vector relu(A + B) with `w2`, read at row r. -/
theorem score_core (w2 : Vec Ideal S1x512 .f32) (A B : FVec Ideal S1024x512 .bf16) (r : Fin 1024) :
    shapeCast S1024x1 (multiReduction .add [1] S1024
        (mulf (extf .f32 (maximumf (addf A B) (broadcast S1024x512 (Scalar.ofBits .bf16 0x0000#16))) bitsLt_bf16_f32)
          (broadcastTo S1024x512 w2 broadcasts_S1x512_S1024x512))
        0x00000000#32 reduces_S1024x512_S1024 (.inl rfl) rfl) shapeCasts_S1024_S1024x1 (ix2 r (0 : Fin 1))
      = ∑ h : Fin 512, max (A (ix2 r h) + B (ix2 r h)) 0 * w2 (ix2 (0 : Fin 1) h) := by
  rw [cast_col]
  refine (Ideal.multiReduction_add_single _ 0x00000000#32 reduces_S1024x512_S1024 (.inl rfl) rfl (ix1 r)).trans ?_
  have key : ∀ h : Fin 512,
      (mulf (extf .f32 (maximumf (addf A B) (broadcast S1024x512 (Scalar.ofBits .bf16 0x0000#16))) bitsLt_bf16_f32)
          (broadcastTo S1024x512 w2 broadcasts_S1x512_S1024x512)) (reduces_S1024x512_S1024.lift (ix1 r) h)
        = max (A (ix2 r h) + B (ix2 r h)) 0 * w2 (ix2 (0 : Fin 1) h) := by
    intro h
    have e : reduces_S1024x512_S1024.lift (ix1 r) h = ix2 r h :=
      funext fun a => Fin.ext (by match a with | ⟨0, _⟩ => rfl | ⟨1, _⟩ => rfl)
    rw [e]
    show max (A (ix2 r h) + B (ix2 r h)) (Ideal.ofBits .bf16 0x0000#16)
        * broadcastTo S1024x512 w2 broadcasts_S1x512_S1024x512 (ix2 r h) = _
    rw [broadcastTo_1b_ab_apply w2 broadcasts_S1x512_S1024x512 r h]
    congr 2
    simp [Ideal.ofBits, Ideal.ieee]
  exact Finset.sum_congr rfl fun h _ => key h

end Cert.KernelRow

end
-- ==== Proof.Hops.lean ====
/-
  Attention pooling over eight hops, one row at a time, on the extended reals.

  A row has eight scores `s 0 … s 7` and, for one output lane, eight values `v 0 … v 7`. The pooled value is the
  softmax-weighted mean  (∑ e^{s i} · v i) / (∑ e^{s i}).  It can be accumulated in ONE pass that carries a running maximum
  `m`, a running normaliser `l = ∑ e^{s j − m}` and a running weighted sum `a = ∑ e^{s j − m} · v j` over the hops seen so far:
  a new score `s` moves the maximum to `m' = max m s`, rescales what was accumulated by `e^{m − m'}` and adds the new
  hop's weight `e^{s − m'}`. Starting from `(−∞, 0, 0)` the first hop's rescaling factor is `e^{−∞} = 0`.
-/
import Mathlib.Data.EReal.Basic
import Idealize.ShloMosaic.PureOps.Ideal

noncomputable section

namespace Cert.Pooling

open Idealize.ShloMosaic

/-- One hop: the running maximum, normaliser and weighted sum absorb the score `sv.1` and the value `sv.2`. -/
def step (st : EReal × EReal × EReal) (sv : EReal × EReal) : EReal × EReal × EReal :=
  (max st.1 sv.1,
   Ideal.exp (st.1 - max st.1 sv.1) * st.2.1 + Ideal.exp (sv.1 - max st.1 sv.1),
   Ideal.exp (st.1 - max st.1 sv.1) * st.2.2 + Ideal.exp (sv.1 - max st.1 sv.1) * sv.2)

/-- Eight hops from `(−∞, 0, 0)`, then the weighted sum over the normaliser. -/
def online (s v : Fin 8 → EReal) : EReal :=
  let st := step (step (step (step (step (step (step (step ((⊥ : EReal), (0 : EReal), (0 : EReal)) (s 0, v 0)) (s 1, v 1)) (s 2, v 2)) (s 3, v 3)) (s 4, v 4)) (s 5, v 5)) (s 6, v 6)) (s 7, v 7)
  Ideal.div st.2.2 st.2.1

end Cert.Pooling

end
-- ==== Proof.KernelBody.lean ====
/-
  What the kernel body leaves in the output block, read at one entry (r, d): the eight-hop running softmax of row r.

  The body computes, for each of the 1024 rows of the block at once, the eight scores (the module on scores), and
  threads the running maximum, normaliser and weighted sum through the hops with whole-column arithmetic: a [rows, 1]
  column for the maximum and the normaliser, a [rows, 128] array for the weighted sum, the columns repeated over the
  128 lanes where they meet the array. Every one of these operations acts entry by entry, so at the entry (r, d) the
  block holds exactly the scalar recursion of `Cert.Pooling.online` on row r's scores and on the values v[r, hop, d].
-/
import proofs.«137010_j85418309583437_2_alg».proof.Proof.KernelScore
import proofs.«137010_j85418309583437_2_alg».proof.Proof.Hops

noncomputable section

namespace Cert.KernelRow

open Cert.KernelIdeal Cert.KernelIdeal.Gen Idealize.ShloMosaic Idealize.ShloMosaic.ValueIdx

/-- Row r's score at one hop, from the shared projection `A`, the hop's loaded slab `l`, and the weights. -/
def hopScore (w : FVec Ideal S128x512 .bf16) (w2 : Vec Ideal S1x512 .f32) (A : FVec Ideal S1024x512 .bf16)
    (l : Vec Ideal S1024x1x128 .f32) (r : Fin 1024) : EReal :=
  ∑ h : Fin 512, max (A (ix2 r h) + ∑ j : Fin 128, l (ix3 r (0 : Fin 1) j) * w (ix2 j h)) 0 * w2 (ix2 (0 : Fin 1) h)

/-! ## The eight score pieces -/

theorem pay12_apply (w : FVec Ideal S128x512 .bf16) (w2 : Vec Ideal S1x512 .f32) (A : FVec Ideal S1024x512 .bf16)
    (l : Vec Ideal S1024x1x128 .f32) (r : Fin 1024) :
    k0_pay12 w w2 A l (ix2 r (0 : Fin 1)) = hopScore w w2 A l r := by
  unfold k0_pay12 hopScore
  refine (score_core w2 A _ r).trans (Finset.sum_congr rfl fun h _ => ?_)
  rw [proj_apply]

theorem pay18_apply (w : FVec Ideal S128x512 .bf16) (w2 : Vec Ideal S1x512 .f32) (A : FVec Ideal S1024x512 .bf16)
    (l : Vec Ideal S1024x1x128 .f32) (r : Fin 1024) :
    k0_pay18 w w2 A l (ix2 r (0 : Fin 1)) = hopScore w w2 A l r := by
  unfold k0_pay18 hopScore
  refine (score_core w2 A _ r).trans (Finset.sum_congr rfl fun h _ => ?_)
  rw [proj_apply]

theorem pay23_apply (w : FVec Ideal S128x512 .bf16) (w2 : Vec Ideal S1x512 .f32) (A : FVec Ideal S1024x512 .bf16)
    (l : Vec Ideal S1024x1x128 .f32) (r : Fin 1024) :
    k0_pay23 w w2 A l (ix2 r (0 : Fin 1)) = hopScore w w2 A l r := by
  unfold k0_pay23 hopScore
  refine (score_core w2 A _ r).trans (Finset.sum_congr rfl fun h _ => ?_)
  rw [proj_apply]

theorem pay35_apply (w : FVec Ideal S128x512 .bf16) (w2 : Vec Ideal S1x512 .f32) (A : FVec Ideal S1024x512 .bf16)
    (l : Vec Ideal S1024x1x128 .f32) (r : Fin 1024) :
    k0_pay35 w w2 A l (ix2 r (0 : Fin 1)) = hopScore w w2 A l r := by
  unfold k0_pay35 hopScore
  refine (score_core w2 A _ r).trans (Finset.sum_congr rfl fun h _ => ?_)
  rw [proj_apply]

theorem pay41_apply (w : FVec Ideal S128x512 .bf16) (w2 : Vec Ideal S1x512 .f32) (A : FVec Ideal S1024x512 .bf16)
    (l : Vec Ideal S1024x1x128 .f32) (r : Fin 1024) :
    k0_pay41 w w2 A l (ix2 r (0 : Fin 1)) = hopScore w w2 A l r := by
  unfold k0_pay41 hopScore
  refine (score_core w2 A _ r).trans (Finset.sum_congr rfl fun h _ => ?_)
  rw [proj_apply]

theorem pay47_apply (w : FVec Ideal S128x512 .bf16) (w2 : Vec Ideal S1x512 .f32) (A : FVec Ideal S1024x512 .bf16)
    (l : Vec Ideal S1024x1x128 .f32) (r : Fin 1024) :
    k0_pay47 w w2 A l (ix2 r (0 : Fin 1)) = hopScore w w2 A l r := by
  unfold k0_pay47 hopScore
  refine (score_core w2 A _ r).trans (Finset.sum_congr rfl fun h _ => ?_)
  rw [proj_apply]

/-- The first hop's piece forms the two weight blocks and the shared projection itself. -/
theorem pay6_apply (v0 : Vec Ideal S1024x128 .f32) (v2 v5 : Vec Ideal S128x512 .f32) (w2 : Vec Ideal S1x512 .f32)
    (l : Vec Ideal S1024x1x128 .f32) (r : Fin 1024) :
    k0_pay6 v0 v2 v5 w2 l (ix2 r (0 : Fin 1)) = hopScore (k0_pay2 v5) w2 (k0_pay3 v0 v2) l r := by
  unfold k0_pay6 hopScore
  refine (score_core w2 (k0_pay3 v0 v2) _ r).trans (Finset.sum_congr rfl fun h _ => ?_)
  rw [proj_apply]

/-- The fifth hop's score is cut in two pieces: its projection, then the lane sum. -/
theorem pay30_apply (w : FVec Ideal S128x512 .bf16) (w2 : Vec Ideal S1x512 .f32) (A : FVec Ideal S1024x512 .bf16)
    (l : Vec Ideal S1024x1x128 .f32) (r : Fin 1024) :
    k0_pay30 w2 A (k0_pay29 w l) (ix2 r (0 : Fin 1)) = hopScore w w2 A l r := by
  unfold k0_pay30 hopScore
  refine (score_core w2 A _ r).trans (Finset.sum_congr rfl fun h _ => ?_)
  unfold k0_pay29
  rw [proj_apply]

/-! ## The block at an entry -/

theorem ofBits_neg_inf : Ideal.ofBits .f32 0xFF800000#32 = (⊥ : EReal) := by simp [Ideal.ofBits, Ideal.ieee]

theorem zero_off : (![0, 0] : Fin 2 → Nat) = fun _ => 0 := funext fun a => by fin_cases a <;> rfl

/-- Entry (r, d) of the block the body stores: the running softmax over the eight hops of row r's scores and of the
    values the eight loaded slabs of v hold at (r, d). -/
theorem body_apply (x0 : Vec Ideal S1024x128 .f32) (x1 x2 : Vec Ideal S1024x8x128 .f32) (x3 x4 : Vec Ideal S128x512 .f32)
    (x5 : Vec Ideal S1x512 .f32) (r : Fin 1024) (d : Fin 128) :
    out0_6 x0 x1 x2 x3 x4 x5 (ix2 r d)
      = Cert.Pooling.online
          ![hopScore (k0_pay2 x4) x5 (k0_pay3 x0 x3) (View.ld x1 r0_3) r, hopScore (k0_pay2 x4) x5 (k0_pay3 x0 x3) (View.ld x1 r0_4) r,
            hopScore (k0_pay2 x4) x5 (k0_pay3 x0 x3) (View.ld x1 r0_5) r, hopScore (k0_pay2 x4) x5 (k0_pay3 x0 x3) (View.ld x1 r0_6) r,
            hopScore (k0_pay2 x4) x5 (k0_pay3 x0 x3) (View.ld x1 r0_7) r, hopScore (k0_pay2 x4) x5 (k0_pay3 x0 x3) (View.ld x1 r0_8) r,
            hopScore (k0_pay2 x4) x5 (k0_pay3 x0 x3) (View.ld x1 r0_9) r, hopScore (k0_pay2 x4) x5 (k0_pay3 x0 x3) (View.ld x1 r0_10) r]
          ![View.ld x2 r0_3 (ix3 r (0 : Fin 1) d), View.ld x2 r0_4 (ix3 r (0 : Fin 1) d), View.ld x2 r0_5 (ix3 r (0 : Fin 1) d),
            View.ld x2 r0_6 (ix3 r (0 : Fin 1) d), View.ld x2 r0_7 (ix3 r (0 : Fin 1) d), View.ld x2 r0_8 (ix3 r (0 : Fin 1) d),
            View.ld x2 r0_9 (ix3 r (0 : Fin 1) d), View.ld x2 r0_10 (ix3 r (0 : Fin 1) d)] := by
  unfold out0_6
  rw [View.canon_unit_zero zero_off]
  simp only [View.ld_unit_zero (S := S1024x128) zero_off, View.ld_unit_zero (S := S128x512) zero_off,
    View.ld_unit_zero (S := S1x512) zero_off]
  simp only [k0_pay1, k0_pay45, k0_pay46, k0_pay48, k0_pay49, k0_pay42, k0_pay43, k0_pay44, k0_pay36, k0_pay37, k0_pay38, k0_pay39, k0_pay40, k0_pay34, k0_pay31, k0_pay32, k0_pay33, k0_pay24, k0_pay25, k0_pay26, k0_pay27, k0_pay28, k0_pay21, k0_pay22, k0_pay19, k0_pay20, k0_pay13, k0_pay14, k0_pay15, k0_pay16, k0_pay17, k0_pay7, k0_pay8, k0_pay9, k0_pay10, k0_pay11, k0_pay4, k0_pay5,
    mulf, addf, subf, divf, exp, maximumf, broadcast, bcast_col, cast_slab,
    pay6_apply, pay12_apply, pay18_apply, pay23_apply, pay30_apply, pay35_apply, pay41_apply, pay47_apply,
    Ideal.mulf_def, Ideal.addf_def, Ideal.subf_def, Ideal.divf_def, Ideal.exp_def, Ideal.maximumf_def, Ideal.ofBits_def,
    Ideal.ofBits_zero_f32, ofBits_neg_inf,
    Cert.Pooling.online, Cert.Pooling.step, Matrix.cons_val_zero, Matrix.cons_val_one, Matrix.cons_val]

end Cert.KernelRow

end
-- ==== Proof.KernelValue.lean ====
/-
  The kernel's result array after the run, as one function of the arrays the pallas_call is launched on.

  The grid has 32 points; point t works on rows 1024·t … 1024·t + 1023 of q, k, v and of the result, and on the whole
  of the two weight blocks and of w2. So row r of the block at point t is row b = 1024·t + r of the arrays, the 32
  result blocks tile the [32768, 128] result, and entry (b, d) of the result is the running softmax over the eight hops
  of row b's scores and of v[b, ·, d]. The score of row b at a hop is
      ∑ₕ max ((∑ⱼ q[b,j]·Wq[j,h]) + (∑ⱼ k[b,hop,j]·Wk[j,h])) 0 · w2[h].
-/
import proofs.«137010_j85418309583437_2_alg».proof.Proof.KernelBody

noncomputable section

namespace Cert.KernelValue

open Cert.KernelIdeal Cert.KernelIdeal.Gen Idealize.ShloMosaic Idealize.ShloMosaic.ValueIdx Idealize.SL.Sem Cert.KernelRow
open Idealize.ShloMosaic.Pipeline (Dat)

/-! ## The specification -/

/-- Row b's score at hop i, from the arrays as the region finds them. -/
def rowScore (q : S32768x128.Idx → EReal) (k : S32768x8x128.Idx → EReal) (wq wk : S128x512.Idx → EReal)
    (w2 : S1x512.Idx → EReal) (b : Fin 32768) (i : Fin 8) : EReal :=
  ∑ h : Fin 512, max ((∑ j : Fin 128, q (ix2 b j) * wq (ix2 j h)) + ∑ j : Fin 128, k (ix3 b i j) * wk (ix2 j h)) 0
    * w2 (ix2 (0 : Fin 1) h)

/-- The pooled array: entry (b, d) is the eight-hop running softmax of row b's scores and of v[b, ·, d]. -/
def pooled (q : S32768x128.Idx → EReal) (k v : S32768x8x128.Idx → EReal) (wq wk : S128x512.Idx → EReal)
    (w2 : S1x512.Idx → EReal) : S32768x128.Idx → EReal :=
  fun y => Cert.Pooling.online (fun i => rowScore q k wq wk w2 ⟨(y 0).val, (y 0).isLt⟩ i)
    (fun i => v (ix3 (⟨(y 0).val, (y 0).isLt⟩ : Fin 32768) i (⟨(y 1).val, (y 1).isLt⟩ : Fin 128)))

theorem online_congr {s s' v v' : Fin 8 → EReal} (hs : ∀ i, s i = s' i) (hv : ∀ i, v i = v' i) :
    Cert.Pooling.online s v = Cert.Pooling.online s' v' := by
  rw [funext hs, funext hv]

/-! ## The pieces of a score, over plain blocks -/

/-- The hop weights' block passes through a format change only. -/
theorem pay2_apply (v5 : Vec Ideal S128x512 .f32) (j : Fin 128) (h : Fin 512) : k0_pay2 v5 (ix2 j h) = v5 (ix2 j h) := by
  unfold k0_pay2
  show shapeCast S128x512 v5 shapeCasts_S128x512_S128x512 (ix2 j h) = _
  rw [shapeCast_self]

/-- The shared projection: entry (r, h) of  q · Wq  is the sum over the 128 features. -/
theorem pay3_apply (v0 : Vec Ideal S1024x128 .f32) (v2 : Vec Ideal S128x512 .f32) (r : Fin 1024) (h : Fin 512) :
    k0_pay3 v0 v2 (ix2 r h) = ∑ j : Fin 128, v0 (ix2 r j) * v2 (ix2 j h) := by
  unfold k0_pay3
  refine (KernelRow.matmul_apply _ _ r h).trans (Finset.sum_congr rfl fun j _ => ?_)
  show v0 (ix2 r j) * shapeCast S128x512 v2 shapeCasts_S128x512_S128x512 (ix2 j h) = _
  rw [shapeCast_self]

/-- The slab a hop loads out of a [rows, 8, 128] block is the block at that hop. -/
theorem ld_slab (X : Vec Ideal S1024x8x128 .f32) (n : Nat) (hn : n < 8)
    (inb : ∀ a, (![0, n, 0] : Fin 3 → Nat) a + S1024x1x128.size a ≤ S1024x8x128.size a) (r : Fin 1024) (j : Fin 128) :
    View.ld X (Rect.unit (s := S1024x8x128) ![0, n, 0] S1024x1x128.size inb) (ix3 r (0 : Fin 1) j) = X (ix3 r (⟨n, hn⟩ : Fin 8) j) := by
  show X _ = X _
  refine congrArg X (funext fun a => Fin.ext ?_)
  match a with
  | ⟨0, _⟩ => show 0 + 1 * r.val = r.val; omega
  | ⟨1, _⟩ => show n + 1 * 0 = n; omega
  | ⟨2, _⟩ => show 0 + 1 * j.val = j.val; omega

/-- A block's score at row r is the arrays' score at the row b the block's row sits on. -/
theorem hopScore_eq (X0 : Vec Ideal S1024x128 .f32) (X1 : Vec Ideal S1024x8x128 .f32) (X3 X4 : Vec Ideal S128x512 .f32)
    (X5 : Vec Ideal S1x512 .f32) (q : S32768x128.Idx → EReal) (k : S32768x8x128.Idx → EReal) (wq wk : S128x512.Idx → EReal)
    (w2 : S1x512.Idx → EReal) (r : Fin 1024) (b : Fin 32768) (n : Nat) (hn : n < 8)
    (inb : ∀ a, (![0, n, 0] : Fin 3 → Nat) a + S1024x1x128.size a ≤ S1024x8x128.size a)
    (h0 : ∀ j : Fin 128, X0 (ix2 r j) = q (ix2 b j)) (h1 : ∀ j : Fin 128, X1 (ix3 r (⟨n, hn⟩ : Fin 8) j) = k (ix3 b (⟨n, hn⟩ : Fin 8) j))
    (h3 : ∀ (j : Fin 128) (h : Fin 512), X3 (ix2 j h) = wq (ix2 j h)) (h4 : ∀ (j : Fin 128) (h : Fin 512), X4 (ix2 j h) = wk (ix2 j h))
    (h5 : ∀ h : Fin 512, X5 (ix2 (0 : Fin 1) h) = w2 (ix2 (0 : Fin 1) h)) :
    hopScore (k0_pay2 X4) X5 (k0_pay3 X0 X3) (View.ld X1 (Rect.unit (s := S1024x8x128) ![0, n, 0] S1024x1x128.size inb)) r
      = rowScore q k wq wk w2 b ⟨n, hn⟩ := by
  unfold hopScore rowScore
  refine Finset.sum_congr rfl fun h _ => ?_
  have eA : (∑ j : Fin 128, X0 (ix2 r j) * X3 (ix2 j h)) = ∑ j : Fin 128, q (ix2 b j) * wq (ix2 j h) :=
    Finset.sum_congr rfl fun j _ => by rw [h0, h3]
  have eB : (∑ j : Fin 128, View.ld X1 (Rect.unit (s := S1024x8x128) ![0, n, 0] S1024x1x128.size inb) (ix3 r (0 : Fin 1) j) * k0_pay2 X4 (ix2 j h))
      = ∑ j : Fin 128, k (ix3 b (⟨n, hn⟩ : Fin 8) j) * wk (ix2 j h) :=
    Finset.sum_congr rfl fun j _ => by rw [ld_slab X1 n hn inb r j, h1, pay2_apply, h4]
  rw [pay3_apply, eA, eB, h5]

/-! ## A point's block of the result -/

variable (m : (ℓ : Loc nD τ sig) → Buf (Elt Ideal) ℓ) (ρ : Dev nD → PrngReg)

/-- The printed index maps, decided over the 32 grid points: q, k, v and the result move with the point along the rows;
    the weight blocks and w2 stay. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry (r, d) of what point t stores, where row r of the block is row B of the arrays and the lane is D: the
    running softmax of row B's scores and of v[B, ·, D]. -/
theorem entry_at (c : Dev nD) (t : Fin cfg0.N) (r : Fin 1024) (d : Fin 128) (B : Fin 32768) (D : Fin 128)
    (hBv : B.val = t.val * 1024 + r.val) (hDv : D.val = d.val) :
    out0_6 (iblk m c 0 t) (iblk m c 1 t) (iblk m c 2 t) (iblk m c 3 t) (iblk m c 4 t) (iblk m c 5 t) (ix2 r d)
      = Cert.Pooling.online (fun i => rowScore (V m c main_arg0) (V m c main_arg1) (V m c main_v1) (V m c main_v3) (V m c main_arg4) B i)
          (fun i => V m c main_arg2 (ix3 B i D)) := by
  obtain ⟨e00, e01, e10, e11, e12, e20, e21, e22, e30, e31, e40, e41, e50, e51, e60, e61⟩ := idx_facts t
  have hr : r.val < 1024 := r.isLt
  have hd : d.val < 128 := d.isLt
  have H0 : ∀ j : Fin 128, iblk m c 0 t (ix2 r j) = V m c main_arg0 (ix2 B j) := fun j => by
    show V m c main_arg0 (((cfg0.win 0).blk t).view.emb (ix2 r j)) = V m c main_arg0 (ix2 B j)
    refine congrArg _ (funext fun a => Fin.ext ?_)
    match a with
    | ⟨0, _⟩ => show win0_0.index t (0 : Fin 2) * 1024 + 1 * r.val = B.val; omega
    | ⟨1, _⟩ => show win0_0.index t (1 : Fin 2) * 128 + 1 * j.val = j.val; omega
  have H1 : ∀ (i : Fin 8) (j : Fin 128), iblk m c 1 t (ix3 r i j) = V m c main_arg1 (ix3 B i j) := fun i j => by
    show V m c main_arg1 (((cfg0.win 1).blk t).view.emb (ix3 r i j)) = V m c main_arg1 (ix3 B i j)
    refine congrArg _ (funext fun a => Fin.ext ?_)
    match a with
    | ⟨0, _⟩ => show win0_1.index t (0 : Fin 3) * 1024 + 1 * r.val = B.val; omega
    | ⟨1, _⟩ => show win0_1.index t (1 : Fin 3) * 8 + 1 * i.val = i.val; omega
    | ⟨2, _⟩ => show win0_1.index t (2 : Fin 3) * 128 + 1 * j.val = j.val; omega
  have H2 : ∀ i : Fin 8, iblk m c 2 t (ix3 r i d) = V m c main_arg2 (ix3 B i D) := fun i => by
    show V m c main_arg2 (((cfg0.win 2).blk t).view.emb (ix3 r i d)) = V m c main_arg2 (ix3 B i D)
    refine congrArg _ (funext fun a => Fin.ext ?_)
    match a with
    | ⟨0, _⟩ => show win0_2.index t (0 : Fin 3) * 1024 + 1 * r.val = B.val; omega
    | ⟨1, _⟩ => show win0_2.index t (1 : Fin 3) * 8 + 1 * i.val = i.val; omega
    | ⟨2, _⟩ => show win0_2.index t (2 : Fin 3) * 128 + 1 * d.val = D.val; omega
  have H3 : ∀ (j : Fin 128) (h : Fin 512), iblk m c 3 t (ix2 j h) = V m c main_v1 (ix2 j h) := fun j h => by
    show V m c main_v1 (((cfg0.win 3).blk t).view.emb (ix2 j h)) = V m c main_v1 (ix2 j h)
    refine congrArg _ (funext fun a => Fin.ext ?_)
    match a with
    | ⟨0, _⟩ => show win0_3.index t (0 : Fin 2) * 128 + 1 * j.val = j.val; omega
    | ⟨1, _⟩ => show win0_3.index t (1 : Fin 2) * 512 + 1 * h.val = h.val; omega
  have H4 : ∀ (j : Fin 128) (h : Fin 512), iblk m c 4 t (ix2 j h) = V m c main_v3 (ix2 j h) := fun j h => by
    show V m c main_v3 (((cfg0.win 4).blk t).view.emb (ix2 j h)) = V m c main_v3 (ix2 j h)
    refine congrArg _ (funext fun a => Fin.ext ?_)
    match a with
    | ⟨0, _⟩ => show win0_4.index t (0 : Fin 2) * 128 + 1 * j.val = j.val; omega
    | ⟨1, _⟩ => show win0_4.index t (1 : Fin 2) * 512 + 1 * h.val = h.val; omega
  have H5 : ∀ h : Fin 512, iblk m c 5 t (ix2 (0 : Fin 1) h) = V m c main_arg4 (ix2 (0 : Fin 1) h) := fun h => by
    show V m c main_arg4 (((cfg0.win 5).blk t).view.emb (ix2 (0 : Fin 1) h)) = V m c main_arg4 (ix2 (0 : Fin 1) h)
    refine congrArg _ (funext fun a => Fin.ext ?_)
    match a with
    | ⟨0, _⟩ => show win0_5.index t (0 : Fin 2) * 1 + 1 * 0 = 0; omega
    | ⟨1, _⟩ => show win0_5.index t (1 : Fin 2) * 512 + 1 * h.val = h.val; omega
  have S0 := hopScore_eq (iblk m c 0 t) (iblk m c 1 t) (iblk m c 3 t) (iblk m c 4 t) (iblk m c 5 t) (V m c main_arg0) (V m c main_arg1) (V m c main_v1) (V m c main_v3) (V m c main_arg4) r B 0 (by decide) inb_S1024x8x128_S1024x1x128_0_0_0 H0 (H1 ⟨0, by decide⟩) H3 H4 H5
  have S1 := hopScore_eq (iblk m c 0 t) (iblk m c 1 t) (iblk m c 3 t) (iblk m c 4 t) (iblk m c 5 t) (V m c main_arg0) (V m c main_arg1) (V m c main_v1) (V m c main_v3) (V m c main_arg4) r B 1 (by decide) inb_S1024x8x128_S1024x1x128_0_1_0 H0 (H1 ⟨1, by decide⟩) H3 H4 H5
  have S2 := hopScore_eq (iblk m c 0 t) (iblk m c 1 t) (iblk m c 3 t) (iblk m c 4 t) (iblk m c 5 t) (V m c main_arg0) (V m c main_arg1) (V m c main_v1) (V m c main_v3) (V m c main_arg4) r B 2 (by decide) inb_S1024x8x128_S1024x1x128_0_2_0 H0 (H1 ⟨2, by decide⟩) H3 H4 H5
  have S3 := hopScore_eq (iblk m c 0 t) (iblk m c 1 t) (iblk m c 3 t) (iblk m c 4 t) (iblk m c 5 t) (V m c main_arg0) (V m c main_arg1) (V m c main_v1) (V m c main_v3) (V m c main_arg4) r B 3 (by decide) inb_S1024x8x128_S1024x1x128_0_3_0 H0 (H1 ⟨3, by decide⟩) H3 H4 H5
  have S4 := hopScore_eq (iblk m c 0 t) (iblk m c 1 t) (iblk m c 3 t) (iblk m c 4 t) (iblk m c 5 t) (V m c main_arg0) (V m c main_arg1) (V m c main_v1) (V m c main_v3) (V m c main_arg4) r B 4 (by decide) inb_S1024x8x128_S1024x1x128_0_4_0 H0 (H1 ⟨4, by decide⟩) H3 H4 H5
  have S5 := hopScore_eq (iblk m c 0 t) (iblk m c 1 t) (iblk m c 3 t) (iblk m c 4 t) (iblk m c 5 t) (V m c main_arg0) (V m c main_arg1) (V m c main_v1) (V m c main_v3) (V m c main_arg4) r B 5 (by decide) inb_S1024x8x128_S1024x1x128_0_5_0 H0 (H1 ⟨5, by decide⟩) H3 H4 H5
  have S6 := hopScore_eq (iblk m c 0 t) (iblk m c 1 t) (iblk m c 3 t) (iblk m c 4 t) (iblk m c 5 t) (V m c main_arg0) (V m c main_arg1) (V m c main_v1) (V m c main_v3) (V m c main_arg4) r B 6 (by decide) inb_S1024x8x128_S1024x1x128_0_6_0 H0 (H1 ⟨6, by decide⟩) H3 H4 H5
  have S7 := hopScore_eq (iblk m c 0 t) (iblk m c 1 t) (iblk m c 3 t) (iblk m c 4 t) (iblk m c 5 t) (V m c main_arg0) (V m c main_arg1) (V m c main_v1) (V m c main_v3) (V m c main_arg4) r B 7 (by decide) inb_S1024x8x128_S1024x1x128_0_7_0 H0 (H1 ⟨7, by decide⟩) H3 H4 H5
  have W0 := (ld_slab (iblk m c 2 t) 0 (by decide) inb_S1024x8x128_S1024x1x128_0_0_0 r d).trans (H2 ⟨0, by decide⟩)
  have W1 := (ld_slab (iblk m c 2 t) 1 (by decide) inb_S1024x8x128_S1024x1x128_0_1_0 r d).trans (H2 ⟨1, by decide⟩)
  have W2 := (ld_slab (iblk m c 2 t) 2 (by decide) inb_S1024x8x128_S1024x1x128_0_2_0 r d).trans (H2 ⟨2, by decide⟩)
  have W3 := (ld_slab (iblk m c 2 t) 3 (by decide) inb_S1024x8x128_S1024x1x128_0_3_0 r d).trans (H2 ⟨3, by decide⟩)
  have W4 := (ld_slab (iblk m c 2 t) 4 (by decide) inb_S1024x8x128_S1024x1x128_0_4_0 r d).trans (H2 ⟨4, by decide⟩)
  have W5 := (ld_slab (iblk m c 2 t) 5 (by decide) inb_S1024x8x128_S1024x1x128_0_5_0 r d).trans (H2 ⟨5, by decide⟩)
  have W6 := (ld_slab (iblk m c 2 t) 6 (by decide) inb_S1024x8x128_S1024x1x128_0_6_0 r d).trans (H2 ⟨6, by decide⟩)
  have W7 := (ld_slab (iblk m c 2 t) 7 (by decide) inb_S1024x8x128_S1024x1x128_0_7_0 r d).trans (H2 ⟨7, by decide⟩)
  refine (body_apply (iblk m c 0 t) (iblk m c 1 t) (iblk m c 2 t) (iblk m c 3 t) (iblk m c 4 t) (iblk m c 5 t) r d).trans ?_
  refine online_congr (fun i => ?_) (fun i => ?_)
  · exact Fin.cases S0 (Fin.cases S1 (Fin.cases S2 (Fin.cases S3 (Fin.cases S4 (Fin.cases S5 (Fin.cases S6 (Fin.cases S7 (fun i => i.elim0)))))))) i
  · exact Fin.cases W0 (Fin.cases W1 (Fin.cases W2 (Fin.cases W3 (Fin.cases W4 (Fin.cases W5 (Fin.cases W6 (Fin.cases W7 (fun i => i.elim0)))))))) i

/-- Entry y of what point t stores is the pooled array at the entry of the result under it. -/
theorem entry_eq (c : Dev nD) (t : Fin cfg0.N) (y : S1024x128.Idx) :
    out0_6 (iblk m c 0 t) (iblk m c 1 t) (iblk m c 2 t) (iblk m c 3 t) (iblk m c 4 t) (iblk m c 5 t) y
      = pooled (V m c main_arg0) (V m c main_arg1) (V m c main_arg2) (V m c main_v1) (V m c main_v3) (V m c main_arg4)
          (((cfg0.win 6).blk t).view.emb y) := by
  obtain ⟨r, d, rfl⟩ : ∃ (r : Fin 1024) (d : Fin 128), y = ix2 r d := ⟨y 0, y 1, eq_ix2 y⟩
  obtain ⟨e00, e01, e10, e11, e12, e20, e21, e22, e30, e31, e40, e41, e50, e51, e60, e61⟩ := idx_facts t
  have hb0 : ((((cfg0.win 6).blk t).view.emb (ix2 r d)) 0).val = t.val * 1024 + r.val := by
    show win0_6.index t (0 : Fin 2) * 1024 + 1 * r.val = _; omega
  have hb1 : ((((cfg0.win 6).blk t).view.emb (ix2 r d)) 1).val = d.val := by
    show win0_6.index t (1 : Fin 2) * 128 + 1 * d.val = _; omega
  exact entry_at m c t r d ⟨_, ((((cfg0.win 6).blk t).view.emb (ix2 r d)) 0).isLt⟩ ⟨_, ((((cfg0.win 6).blk t).view.emb (ix2 r d)) 1).isLt⟩ hb0 hb1

/-- What point t writes back is its block of the pooled array. -/
theorem flushed_eq (c : Dev nD) (t : Fin cfg0.N) :
    (dats m 0 c).flushed 6 t = ((cfg0.win 6).blk t).view.read (Elt Ideal)
      (pooled (V m c main_arg0) (V m c main_arg1) (V m c main_arg2) (V m c main_v1) (V m c main_v3) (V m c main_arg4)) := by
  show (cfg0.win 6).cut (grid0.coords t) ((dats m 0 c).after 6 t) = _
  rw [after0_6]
  funext y
  exact entry_eq m c t y

/-! ## The 32 blocks tile the result -/

theorem mem_blk (t : Fin cfg0.N) (i : S32768x128.Idx) :
    i ∈ ((cfg0.win 6).blk t).view.set ↔ ∀ a : Fin 2, win0_6.index t a * S1024x128.size a ≤ (i a).val
      ∧ (i a).val < win0_6.index t a * S1024x128.size a + S1024x128.size a := by
  show i ∈ ((View.whole main_v4).slice (win0_6.rect t)).set ↔ _
  rw [View.set_slice_whole, Rect.mem_set_unit]
  exact Iff.rfl

theorem idx_onto : ∀ q0 : Fin 32, ∃ t : Fin cfg0.N, win0_6.index t = ![q0.val, 0] :=
  (by decide +kernel : ∀ q0 : Fin 32, ∃ t : Fin grid0.N, win0_6.index t = ![q0.val, 0])

/-- Row i₀ of the result lies in the block of point i₀ / 1024. -/
theorem cover (i : S32768x128.Idx) : ∃ t : Fin cfg0.N, (cfg0.win 6).flush t = true ∧ i ∈ ((cfg0.win 6).blk t).view.set := by
  have hi0 : (i 0).val < 32768 := (i 0).isLt
  have hi1 : (i 1).val < 128 := (i 1).isLt
  obtain ⟨t, ht⟩ := idx_onto ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 128 ≤ (i 1).val ∧ (i 1).val < win0_6.index t (1 : Fin 2) * 128 + 128; omega

/-- The result array after the run is the pooled array of the arrays the region found. -/
theorem final (c : Dev nD) : (dats m 0 c).arrAt 6 cfg0.N
    = pooled (V m c main_arg0) (V m c main_arg1) (V m c main_arg2) (V m c main_v1) (V m c main_v3) (V m c main_arg4) :=
  (dats m 0 c).arrAt_eq_of_cover 6 _ (fun t _ => flushed_eq m c t) cover

end Cert.KernelValue

end
-- ==== Proof.KernelRun.lean ====
/-
  The idealized kernel's run, read: the result array is the pooled array of the ARGUMENTS.

  Before the region the host cuts W1 [512, 256] into its left and right halves and transposes each:
  Wq[j,h] = W1[h,j] and Wk[j,h] = W1[h,128+j]; the other arrays reach the region as launched. After the run the
  result buffer holds the pooled array (the 32 blocks tile it) and the five arguments are unchanged.
-/
import proofs.«137010_j85418309583437_2_alg».proof.Proof.KernelValue
import Idealize.ShloMosaic.Lib.StableHlo.Run

noncomputable section

namespace Cert.KernelValue

open Cert.KernelIdeal Cert.KernelIdeal.Gen Idealize.ShloMosaic Idealize.ShloMosaic.ValueIdx Idealize.SL.Sem
open Idealize.ShloMosaic.StableHlo

variable (m : (ℓ : Loc nD τ sig) → Buf (Elt Ideal) ℓ) (ρ : Dev nD → PrngReg)

/-- The first weight block as the region finds it: the transposed left half of W1. -/
theorem V_main_v1 (c : Dev nD) : (V m c main_v1 : S128x512.Idx → EReal)
    = transpose S128x512 [1, 0] (extractStridedSlice S512x128 ![0, 0] (m ((c.tc : Thread nD τ).loc main_arg3))
        slices_S512x256_S512x128_0_0) transposes_S512x128_S128x512_1_0 := by
  dsimp only [Gen.V, Gen.hostOps0]; after_results

/-- The second weight block as the region finds it: the transposed right half of W1. -/
theorem V_main_v3 (c : Dev nD) : (V m c main_v3 : S128x512.Idx → EReal)
    = transpose S128x512 [1, 0] (extractStridedSlice S512x128 ![0, 128] (m ((c.tc : Thread nD τ).loc main_arg3))
        slices_S512x256_S512x128_0_128) transposes_S512x128_S128x512_1_0 := by
  dsimp only [Gen.V, Gen.hostOps0]; after_results

theorem wq_apply (c : Dev nD) (j : Fin 128) (h : Fin 512) :
    V m c main_v1 (ix2 j h) = m ((c.tc : Thread nD τ).loc main_arg3) (ix2 h (Fin.castAdd 128 j : Fin 256)) := by
  rw [V_main_v1]
  refine (transpose_apply [1, 0] _ transposes_S512x128_S128x512_1_0 (ix2 j h) (ix2 h j)
    (fun b => match b with | ⟨0, _⟩ => rfl | ⟨1, _⟩ => rfl)).trans ?_
  exact extractStridedSlice_apply ![0, 0] _ slices_S512x256_S512x128_0_0 (ix2 h j) (ix2 h (Fin.castAdd 128 j : Fin 256))
    (fun a => match a with
      | ⟨0, _⟩ => by show h.val = 0 + h.val; omega
      | ⟨1, _⟩ => by show j.val = 0 + j.val; omega)

theorem wk_apply (c : Dev nD) (j : Fin 128) (h : Fin 512) :
    V m c main_v3 (ix2 j h) = m ((c.tc : Thread nD τ).loc main_arg3) (ix2 h (Fin.natAdd 128 j : Fin 256)) := by
  rw [V_main_v3]
  refine (transpose_apply [1, 0] _ transposes_S512x128_S128x512_1_0 (ix2 j h) (ix2 h j)
    (fun b => match b with | ⟨0, _⟩ => rfl | ⟨1, _⟩ => rfl)).trans ?_
  exact extractStridedSlice_apply ![0, 128] _ slices_S512x256_S512x128_0_128 (ix2 h j) (ix2 h (Fin.natAdd 128 j : Fin 256))
    (fun a => match a with
      | ⟨0, _⟩ => by show h.val = 0 + h.val; omega
      | ⟨1, _⟩ => by show 128 + j.val = 128 + j.val; rfl)

/-- Every weakly fair execution of the idealized kernel terminates with the result at the pooled array of the
    arguments (the weight blocks as the region finds them) and the arguments unchanged. -/
theorem run : θ_run defs (onTc (τ := τ) (main (F := Ideal))) ⟨m, fun _ => 0, ρ⟩ fun r => ∀ c : Dev nD,
      r.2.mem ((c.tc : Thread nD τ).loc main_v4)
        = pooled (m ((c.tc : Thread nD τ).loc main_arg0)) (m ((c.tc : Thread nD τ).loc main_arg1))
            (m ((c.tc : Thread nD τ).loc main_arg2)) (V m c main_v1) (V m c main_v3) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).1 6).trans ((final m c).trans (by rw [V_main_arg0, V_main_arg1, V_main_arg2, V_main_arg4])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c)))⟩)
    (run_main m ρ)

end Cert.KernelValue

end
-- ==== Proof.RefRead.lean ====
import proofs.«137010_j85418309583437_2_alg».proof.Proof.Gen.ReferenceIdeal.Read
import Idealize.ShloMosaic.Lib.ValueIdx
import Idealize.ShloMosaic.Lib.Pipeline.Value
import Idealize.ShloMosaic.PureOps.Ideal.Laws

/-! The reference program read at one output index as one explicit formula over the extended reals:
    a softmax over eight hops of a two-layer score, weighting the values. -/

noncomputable section

namespace Cert.RefRead

open Cert.ReferenceIdeal Cert.ReferenceIdeal.Gen Idealize.ShloMosaic Idealize.ShloMosaic.ValueIdx
open scoped BigOperators

variable (q : (⟨S32768x128, .f32⟩ : BufTy).Contents (Elt Ideal)) (k v : (⟨S32768x8x128, .f32⟩ : BufTy).Contents (Elt Ideal)) (W1 : (⟨S512x256, .f32⟩ : BufTy).Contents (Elt Ideal)) (W2 : (⟨S1x512, .f32⟩ : BufTy).Contents (Elt Ideal))

/-- row b, hop i of the concatenation [q_b ; k_{b,i}] along the feature axis -/
def cat (b : Fin 32768) (i : Fin 8) (j : Fin 256) : EReal :=
  if h : j.val < 128 then q (ix2 b ⟨j.val, h⟩) else k (ix3 b i ⟨j.val - 128, by omega⟩)

/-- the score of row b at hop i: ∑_h relu(∑_j cat_j · W1[h,j]) · W2[0,h] -/
def score (b : Fin 32768) (i : Fin 8) : EReal :=
  ∑ h : Fin 512, max (∑ j : Fin 256, cat q k b i j * W1 (ix2 h j)) 0 * W2 (ix2 (0 : Fin 1) h)

/-- the reference's shift for row b: the maximum of -∞ and the fold of max over the eight scores from -∞ -/
def shift (b : Fin 32768) : EReal :=
  max ⊥ ((Finset.univ : Finset (Fin 8)).fold max ⊥ (fun i => score q k W1 W2 b i))

/-! ## The concatenation read at an index -/

theorem v2_eq (b : Fin 32768) (i : Fin 8) (j : Fin 256) :
    Read.val_main_v2 (F := Ideal) q k (ix3 b i j) = cat q k b i j := by
  unfold Read.val_main_v2 cat
  by_cases h : j.val < 128
  · rw [dif_pos h]
    refine (concatenate_pair_apply_left _ _ _ concatenates_S32768x8x128_S32768x8x128_S32768x8x256_d2 (ix3 b i j) rfl
      (ix3 b i (⟨j.val, h⟩ : Fin 128)) (fun c => by match c with | ⟨0, _⟩ => rfl | ⟨1, _⟩ => rfl | ⟨2, _⟩ => rfl)).trans ?_
    rw [Read.val_main_v1_apply, Read.val_main_v0_apply]
    exact congrArg q (funext fun a => Fin.ext (by match a with | ⟨0, _⟩ => rfl | ⟨1, _⟩ => rfl))
  · rw [dif_neg h]
    exact concatenate_pair_apply_right _ _ _ concatenates_S32768x8x128_S32768x8x128_S32768x8x256_d2 (ix3 b i j) rfl rfl
      (ix3 b i (⟨j.val - 128, by omega⟩ : Fin 128))
      (fun c hc => by
        match c, hc with
        | ⟨0, _⟩, _ => rfl
        | ⟨1, _⟩, _ => rfl
        | ⟨2, _⟩, hc => exact absurd rfl hc)
      (by show j.val - 128 + 128 = j.val; omega)

/-! ## The score -/

theorem v4_eq (b : Fin 32768) (i : Fin 8) (h : Fin 512) :
    Read.val_main_v4 (F := Ideal) q k W1 (ix3 b i h) = max (∑ j : Fin 256, cat q k b i j * W1 (ix2 h j)) 0 := by
  rw [Read.val_main_v4_apply, Read.val_main_v3_apply, Read.val_main_call0_v0_apply, Read.val_main_call0_cst_apply]
  show max _ (Ideal.ofBits .f32 0x00000000#32) = _
  rw [Ideal.ofBits_zero_f32]
  refine congrArg (fun s => max s (0 : EReal)) (Finset.sum_congr rfl fun j _ => ?_)
  have e1 : Read.lidx_main_v3 (ix3 b i h) j = ix3 b i j :=
    funext fun a => Fin.ext (by match a with | ⟨0, _⟩ => rfl | ⟨1, _⟩ => rfl | ⟨2, _⟩ => rfl)
  have e2 : Read.ridx_main_v3 (ix3 b i h) j = ix2 h j :=
    funext fun a => Fin.ext (by match a with | ⟨0, _⟩ => rfl | ⟨1, _⟩ => rfl)
  rw [e1, e2, v2_eq]

theorem v5_eq (b : Fin 32768) (i : Fin 8) :
    Read.val_main_v5 (F := Ideal) q k W1 W2 (ix3 b i (0 : Fin 1)) = score q k W1 W2 b i := by
  rw [Read.val_main_v5_apply]
  unfold score
  refine Finset.sum_congr rfl fun h _ => ?_
  have e1 : Read.lidx_main_v5 (ix3 b i (0 : Fin 1)) h = ix3 b i h :=
    funext fun a => Fin.ext (by match a with | ⟨0, _⟩ => rfl | ⟨1, _⟩ => rfl | ⟨2, _⟩ => rfl)
  have e2 : Read.ridx_main_v5 (ix3 b i (0 : Fin 1)) h = ix2 (0 : Fin 1) h :=
    funext fun a => Fin.ext (by match a with | ⟨0, _⟩ => rfl | ⟨1, _⟩ => rfl)
  rw [e1, e2, v4_eq]

/-! ## The max-reduce over the hops and the shift -/

/-- the reduced index (b, 0) with hop k put back is (b, k, 0) -/
theorem lift_eq (h : S32768x8x1.Reduces [1] S32768x1) (b : Fin 32768) (c : Fin (S32768x8x1.size 1)) :
    h.lift (ix2 b (0 : Fin 1)) c = ix3 b (⟨c.val, c.isLt⟩ : Fin 8) (0 : Fin 1) := by
  funext a; apply Fin.ext
  fin_cases a <;> rfl

theorem v6_eq (b : Fin 32768) :
    Read.val_main_v6 (F := Ideal) q k W1 W2 (ix2 b (0 : Fin 1))
      = (Finset.univ : Finset (Fin 8)).fold max ⊥ (fun i => score q k W1 W2 b i) := by
  have hred : S32768x8x1.Reduces [1] S32768x1 := by decide
  unfold Read.val_main_v6
  rw [Host.reduce_eq_fold_single FloatOps.maximumf _ _ reducesTo_S32768x8x1_S32768x1_d1 hred h_S_]
  have hinit : (Read.val_main_cst (F := Ideal)) (Shape.Idx.first h_S_) = (⊥ : EReal) := by
    show Ideal.ofBits .f32 0xFF800000#32 = ⊥
    simp [Ideal.ofBits, Ideal.ieee]
  have hf : (Read.val_main_v5 (F := Ideal) q k W1 W2 ∘ hred.lift (ix2 b (0 : Fin 1))) = fun i : Fin 8 => score q k W1 W2 b i :=
    funext fun i => by
      show Read.val_main_v5 (F := Ideal) q k W1 W2 (hred.lift (ix2 b (0 : Fin 1)) i) = _
      rw [lift_eq]
      exact v5_eq q k W1 W2 b i
  rw [hinit]
  exact congrArg (fun f => Finset.fold max (⊥ : EReal) f (Finset.univ : Finset (Fin 8))) hf

theorem v8_eq (b : Fin 32768) :
    Read.val_main_v8 (F := Ideal) q k W1 W2 (ix2 b (0 : Fin 1)) = shift q k W1 W2 b := by
  rw [Read.val_main_v8_apply, Read.val_main_v7_apply, Read.val_main_cst_0_apply, v6_eq]
  unfold shift
  show max (Ideal.ofBits .f32 0xFF800000#32) _ = _
  have hinit : Ideal.ofBits .f32 0xFF800000#32 = (⊥ : EReal) := by simp [Ideal.ofBits, Ideal.ieee]
  rw [hinit]

/-- a fold of max from -∞ is -∞ or one of the folded values -/
theorem fold_max_bot_cases (f : Fin 8 → EReal) (s : Finset (Fin 8)) :
    s.fold max ⊥ f = ⊥ ∨ ∃ i, s.fold max ⊥ f = f i := by
  induction s using Finset.induction_on with
  | empty => exact Or.inl rfl
  | insert a s ha ih =>
    rw [Finset.fold_insert ha]
    rcases max_choice (f a) (s.fold max ⊥ f) with h | h
    · exact Or.inr ⟨a, h⟩
    · rw [h]; exact ih

theorem shift_real (b : Fin 32768) (hs : ∀ i, ∃ r : ℝ, score q k W1 W2 b i = (r : EReal)) :
    ∃ M : ℝ, shift q k W1 W2 b = (M : EReal) := by
  unfold shift
  rw [max_eq_right bot_le]
  rcases fold_max_bot_cases (fun i => score q k W1 W2 b i) Finset.univ with h | ⟨i, h⟩
  · exfalso
    obtain ⟨r, hr⟩ := hs 0
    have hle : score q k W1 W2 b 0 ≤ (Finset.univ : Finset (Fin 8)).fold max ⊥ (fun i => score q k W1 W2 b i) :=
      (Finset.le_fold_max _).2 (Or.inr ⟨0, Finset.mem_univ _, le_rfl⟩)
    rw [h, hr] at hle
    exact absurd (le_bot_iff.1 hle) (EReal.coe_ne_bot r)
  · obtain ⟨r, hr⟩ := hs i
    exact ⟨r, h.trans hr⟩

/-! ## The softmax weights and the output -/

theorem v12_eq (b : Fin 32768) (i : Fin 8) :
    Read.val_main_v12 (F := Ideal) q k W1 W2 (ix3 b i (0 : Fin 1))
      = Ideal.exp (score q k W1 W2 b i - shift q k W1 W2 b) := by
  rw [Read.val_main_v12_apply, Read.val_main_v11_apply, Read.val_main_v10_apply, Read.val_main_v9_apply, v5_eq]
  have e : Read.idx_main_v9 (Read.idx_main_v10 (ix3 b i (0 : Fin 1))) = ix2 b (0 : Fin 1) :=
    funext fun a => Fin.ext (by match a with | ⟨0, _⟩ => rfl | ⟨1, _⟩ => rfl)
  rw [e, v8_eq]
  rfl

theorem v13_eq (b : Fin 32768) :
    Read.val_main_v13 (F := Ideal) q k W1 W2 (ix2 b (0 : Fin 1))
      = 0 + ∑ j : Fin 8, Ideal.exp (score q k W1 W2 b j - shift q k W1 W2 b) := by
  rw [Read.val_main_v13_apply, Read.val_main_cst_1_apply]
  show Ideal.ofBits .f32 0x00000000#32 + _ = _
  rw [Ideal.ofBits_zero_f32]
  refine congrArg (fun s => (0 : EReal) + s) (Finset.sum_congr rfl fun j _ => ?_)
  have e : Read.idx_main_v13 (ix2 b (0 : Fin 1)) j = ix3 b j (0 : Fin 1) :=
    funext fun a => Fin.ext (by match a with | ⟨0, _⟩ => rfl | ⟨1, _⟩ => rfl | ⟨2, _⟩ => rfl)
  rw [e, v12_eq]

theorem v17_eq (b : Fin 32768) (i : Fin 8) (d : Fin 128) :
    Read.val_main_v17 (F := Ideal) q k W1 W2 (ix3 b i d)
      = Ideal.div (Ideal.exp (score q k W1 W2 b i - shift q k W1 W2 b))
          (0 + ∑ j : Fin 8, Ideal.exp (score q k W1 W2 b j - shift q k W1 W2 b)) := by
  rw [Read.val_main_v17_apply]
  have e0 : Read.idx_main_v17 (ix3 b i d) = ix3 b i (0 : Fin 1) :=
    funext fun a => Fin.ext (by match a with | ⟨0, _⟩ => rfl | ⟨1, _⟩ => rfl | ⟨2, _⟩ => rfl)
  rw [e0, Read.val_main_v16_apply, Read.val_main_v15_apply, Read.val_main_v14_apply, v12_eq]
  have e : Read.idx_main_v14 (Read.idx_main_v15 (ix3 b i (0 : Fin 1))) = ix2 b (0 : Fin 1) :=
    funext fun a => Fin.ext (by match a with | ⟨0, _⟩ => rfl | ⟨1, _⟩ => rfl)
  rw [e, v13_eq]
  rfl

/-- the reference's output at row b, feature d -/
theorem ref_apply (b : Fin 32768) (d : Fin 128) :
    Read.val_main_v19 (F := Ideal) q k v W1 W2 (ix2 b d)
      = 0 + ∑ i : Fin 8, v (ix3 b i d) * Ideal.div (Ideal.exp (score q k W1 W2 b i - shift q k W1 W2 b)) (0 + ∑ j : Fin 8, Ideal.exp (score q k W1 W2 b j - shift q k W1 W2 b)) := by
  rw [Read.val_main_v19_apply, Read.val_main_cst_2_apply]
  show Ideal.ofBits .f32 0x00000000#32 + _ = _
  rw [Ideal.ofBits_zero_f32]
  refine congrArg (fun s => (0 : EReal) + s) (Finset.sum_congr rfl fun i _ => ?_)
  have e : Read.idx_main_v19 (ix2 b d) i = ix3 b i d :=
    funext fun a => Fin.ext (by match a with | ⟨0, _⟩ => rfl | ⟨1, _⟩ => rfl | ⟨2, _⟩ => rfl)
  rw [e, Read.val_main_v18_apply, v17_eq]
  rfl

end Cert.RefRead

end
-- ==== Proof.OnlineSoftmax.lean ====
/-
  The one-pass running softmax equals the two-pass softmax, for real scores and values.

  Carry the state (m, l, a) of `Cert.Pooling.step`. If m = μ is real and l = e^{−μ}·P, a = e^{−μ}·Q for reals P, Q, then after
  absorbing a real score s and value v the state has the same form with μ' = max μ s, P + e^{s} and Q + e^{s}·v, because
  e^{μ−μ'}·e^{−μ} = e^{−μ'} and e^{s−μ'} = e^{−μ'}·e^{s}. The first hop starts from (−∞, 0, 0): its rescaling factor is
  e^{−∞} = 0 and it leaves (s₀, 1, v₀) = (s₀, e^{−s₀}·e^{s₀}, e^{−s₀}·e^{s₀}v₀). After eight hops the quotient a / l is Q / P with
  P = ∑ e^{sᵢ} > 0 and Q = ∑ e^{sᵢ}·vᵢ. The two-pass form ∑ vᵢ · (e^{sᵢ−M} / ∑ⱼ e^{sⱼ−M}) is the same quotient for every real
  shift M, since e^{s−M} = e^{s}·e^{−M} and the factor e^{−M} cancels.
-/
import Mathlib
import Idealize.ShloMosaic.PureOps.Ideal
import proofs.«137010_j85418309583437_2_alg».proof.Proof.Hops

noncomputable section
namespace Cert.Pooling
open Idealize.ShloMosaic

/-- the maximum of two reals, taken in the extended reals -/
theorem coe_max' (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- a finite sum of reals, taken in the extended reals -/
theorem coe_sum' {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The invariant of the hops: the running maximum is a real `μ`, and the normaliser and the
    weighted sum are `e^{-μ} P` and `e^{-μ} Q`, where `P = ∑ e^{s}` and `Q = ∑ e^{s} v` over the
    hops absorbed so far. -/
def Good (P Q : ℝ) (st : EReal × EReal × EReal) : Prop :=
  ∃ μ : ℝ, st.1 = (μ : EReal) ∧ st.2.1 = ((Real.exp (-μ) * P : ℝ) : EReal)
    ∧ st.2.2 = ((Real.exp (-μ) * Q : ℝ) : EReal)

/-- the first hop, from (−∞, 0, 0) -/
theorem good_first (s v : ℝ) :
    Good (Real.exp s) (Real.exp s * v) (step ((⊥ : EReal), (0 : EReal), (0 : EReal)) ((s : EReal), (v : EReal))) := by
  have hm : max (⊥ : EReal) (s : EReal) = (s : EReal) := max_eq_right bot_le
  have h1 : Real.exp (-s) * Real.exp s = 1 := by rw [← Real.exp_add, neg_add_cancel, Real.exp_zero]
  refine ⟨s, ?_, ?_, ?_⟩
  · exact hm
  · show Ideal.exp (⊥ - max (⊥ : EReal) (s : EReal)) * 0 + Ideal.exp ((s : EReal) - max (⊥ : EReal) (s : EReal)) = _
    rw [hm, mul_zero, zero_add, ← EReal.coe_sub, sub_self, Ideal.exp_coe, Real.exp_zero, h1]
  · show Ideal.exp (⊥ - max (⊥ : EReal) (s : EReal)) * 0 + Ideal.exp ((s : EReal) - max (⊥ : EReal) (s : EReal)) * (v : EReal) = _
    rw [hm, mul_zero, zero_add, ← EReal.coe_sub, sub_self, Ideal.exp_coe, Real.exp_zero, ← EReal.coe_mul,
      ← mul_assoc, h1]

/-- the real identity behind a hop: rescaling by `e^{μ-μ'}` and adding the new term -/
theorem hop_real (μ μ' s P X : ℝ) :
    Real.exp (μ - μ') * (Real.exp (-μ) * P) + Real.exp (s - μ') * X
      = Real.exp (-μ') * (P + Real.exp s * X) := by
  have h : Real.exp (μ - μ') * Real.exp (-μ) = Real.exp (-μ') := by
    rw [← Real.exp_add]; congr 1; ring
  have h2 : Real.exp (s - μ') = Real.exp (-μ') * Real.exp s := by
    rw [← Real.exp_add]; congr 1; ring
  rw [← mul_assoc, h, h2]; ring

/-- a later hop keeps the invariant and adds its term to `P` and `Q` -/
theorem good_step {P Q : ℝ} {st : EReal × EReal × EReal} (h : Good P Q st) (s v : ℝ) :
    Good (P + Real.exp s) (Q + Real.exp s * v) (step st ((s : EReal), (v : EReal))) := by
  obtain ⟨m, l, a⟩ := st
  obtain ⟨μ, hm, hl, ha⟩ := h
  simp only at hm hl ha
  subst hm hl ha
  refine ⟨max μ s, ?_, ?_, ?_⟩
  · exact coe_max' μ s
  · show Ideal.exp ((μ : EReal) - max (μ : EReal) (s : EReal)) * ((Real.exp (-μ) * P : ℝ) : EReal)
        + Ideal.exp ((s : EReal) - max (μ : EReal) (s : EReal)) = _
    rw [coe_max', ← EReal.coe_sub, ← EReal.coe_sub, Ideal.exp_coe, Ideal.exp_coe, ← EReal.coe_mul,
      ← EReal.coe_add]
    have := hop_real μ (max μ s) s P 1
    rw [mul_one, mul_one] at this
    rw [this]
  · show Ideal.exp ((μ : EReal) - max (μ : EReal) (s : EReal)) * ((Real.exp (-μ) * Q : ℝ) : EReal)
        + Ideal.exp ((s : EReal) - max (μ : EReal) (s : EReal)) * (v : EReal) = _
    rw [coe_max', ← EReal.coe_sub, ← EReal.coe_sub, Ideal.exp_coe, Ideal.exp_coe, ← EReal.coe_mul,
      ← EReal.coe_mul, ← EReal.coe_add, hop_real μ (max μ s) s Q v]

/-- at the end the weighted sum over the normaliser is `Q / P`: the factor `e^{-μ}` cancels -/
theorem div_of_good {P Q : ℝ} {st : EReal × EReal × EReal} (h : Good P Q st) (hP : 0 < P) :
    Ideal.div st.2.2 st.2.1 = ((Q / P : ℝ) : EReal) := by
  obtain ⟨μ, -, hl, ha⟩ := h
  have he : 0 < Real.exp (-μ) := Real.exp_pos _
  have hne : Real.exp (-μ) * P ≠ 0 := ne_of_gt (mul_pos he hP)
  rw [hl, ha, Ideal.div_coe hne, ← EReal.coe_mul]
  congr 1
  field_simp

/-- the online value is `Q / P` with the sums accumulated in the order of the hops -/
theorem online_coe (s v : Fin 8 → ℝ) :
    online (fun i => (s i : EReal)) (fun i => (v i : EReal))
      = (((Real.exp (s 0) * v 0 + Real.exp (s 1) * v 1 + Real.exp (s 2) * v 2 + Real.exp (s 3) * v 3
            + Real.exp (s 4) * v 4 + Real.exp (s 5) * v 5 + Real.exp (s 6) * v 6 + Real.exp (s 7) * v 7)
          / (Real.exp (s 0) + Real.exp (s 1) + Real.exp (s 2) + Real.exp (s 3)
            + Real.exp (s 4) + Real.exp (s 5) + Real.exp (s 6) + Real.exp (s 7)) : ℝ) : EReal) := by
  have hG := good_step (good_step (good_step (good_step (good_step (good_step (good_step
    (good_first (s 0) (v 0)) (s 1) (v 1)) (s 2) (v 2)) (s 3) (v 3)) (s 4) (v 4)) (s 5) (v 5))
    (s 6) (v 6)) (s 7) (v 7)
  have hP : 0 < Real.exp (s 0) + Real.exp (s 1) + Real.exp (s 2) + Real.exp (s 3)
      + Real.exp (s 4) + Real.exp (s 5) + Real.exp (s 6) + Real.exp (s 7) := by positivity
  exact div_of_good hG hP

/-- the two-pass value, shifted by any real `M`, is the same quotient -/
theorem twoPass_coe (s v : Fin 8 → ℝ) (M : ℝ) :
    (∑ i : Fin 8, (v i : EReal) * Ideal.div (Ideal.exp ((s i : EReal) - (M : EReal)))
        (∑ j : Fin 8, Ideal.exp ((s j : EReal) - (M : EReal))))
      = ((∑ i : Fin 8, v i * (Real.exp (s i - M) * (1 / ∑ j : Fin 8, Real.exp (s j - M))) : ℝ) : EReal) := by
  have hD : (∑ j : Fin 8, Ideal.exp ((s j : EReal) - (M : EReal)))
      = ((∑ j : Fin 8, Real.exp (s j - M) : ℝ) : EReal) := by
    rw [coe_sum']
    refine Finset.sum_congr rfl fun j _ => ?_
    rw [← EReal.coe_sub, Ideal.exp_coe]
  have hpos : 0 < ∑ j : Fin 8, Real.exp (s j - M) :=
    Finset.sum_pos (fun j _ => Real.exp_pos _) Finset.univ_nonempty
  rw [coe_sum' (Finset.univ : Finset (Fin 8))]
  apply Finset.sum_congr rfl
  intro i _
  rw [hD, Ideal.div_coe (ne_of_gt hpos), ← EReal.coe_sub, Ideal.exp_coe, ← EReal.coe_mul, ← EReal.coe_mul]

/-- the real identity: the shift `M` cancels in the quotient -/
theorem quotient_real (s v : Fin 8 → ℝ) (M : ℝ) :
    (Real.exp (s 0) * v 0 + Real.exp (s 1) * v 1 + Real.exp (s 2) * v 2 + Real.exp (s 3) * v 3
        + Real.exp (s 4) * v 4 + Real.exp (s 5) * v 5 + Real.exp (s 6) * v 6 + Real.exp (s 7) * v 7)
      / (Real.exp (s 0) + Real.exp (s 1) + Real.exp (s 2) + Real.exp (s 3)
        + Real.exp (s 4) + Real.exp (s 5) + Real.exp (s 6) + Real.exp (s 7))
      = ∑ i : Fin 8, v i * (Real.exp (s i - M) * (1 / ∑ j : Fin 8, Real.exp (s j - M))) := by
  have hs : ∀ i, Real.exp (s i - M) = Real.exp (s i) * Real.exp (-M) := fun i => by
    rw [← Real.exp_add]; congr 1
  simp only [Fin.sum_univ_eight, hs]
  have hc : Real.exp (-M) ≠ 0 := ne_of_gt (Real.exp_pos _)
  have hP : Real.exp (s 0) + Real.exp (s 1) + Real.exp (s 2) + Real.exp (s 3)
      + Real.exp (s 4) + Real.exp (s 5) + Real.exp (s 6) + Real.exp (s 7) ≠ 0 :=
    ne_of_gt (by positivity)
  have hD : Real.exp (s 0) * Real.exp (-M) + Real.exp (s 1) * Real.exp (-M)
      + Real.exp (s 2) * Real.exp (-M) + Real.exp (s 3) * Real.exp (-M)
      + Real.exp (s 4) * Real.exp (-M) + Real.exp (s 5) * Real.exp (-M)
      + Real.exp (s 6) * Real.exp (-M) + Real.exp (s 7) * Real.exp (-M) ≠ 0 :=
    ne_of_gt (by positivity)
  generalize Real.exp (-M) = c at *
  generalize Real.exp (s 0) = e0 at *
  generalize Real.exp (s 1) = e1 at *
  generalize Real.exp (s 2) = e2 at *
  generalize Real.exp (s 3) = e3 at *
  generalize Real.exp (s 4) = e4 at *
  generalize Real.exp (s 5) = e5 at *
  generalize Real.exp (s 6) = e6 at *
  generalize Real.exp (s 7) = e7 at *
  field_simp

theorem online_eq_twoPass (s v : Fin 8 → ℝ) (M : ℝ) :
    online (fun i => (s i : EReal)) (fun i => (v i : EReal))
      = ∑ i : Fin 8, (v i : EReal) * Ideal.div (Ideal.exp ((s i : EReal) - (M : EReal))) (∑ j : Fin 8, Ideal.exp ((s j : EReal) - (M : EReal))) := by
  rw [online_coe, twoPass_coe, quotient_real s v M]

end Cert.Pooling
-- ==== Proof.Bridge.lean ====
/-
  The reference's result and the kernel's pooled array are one function of the arguments.

  Three facts join them. (1) The reference contracts the concatenation [q_b ; k_{b,hop}] (256 features) with a row of
  W1; splitting the sum at feature 128 gives the kernel's two 128-feature sums against the two halves of W1, which the
  kernel receives transposed: Wq[j,h] = W1[h,j] and Wk[j,h] = W1[h,128+j]. So the two programs have the same scores.
  (2) When every input is finite every score is a real number (sums, products and a maximum with 0 of reals), and so is
  the reference's shift (a maximum of the scores). (3) For real scores and values the one-pass running softmax equals
  the two-pass softmax with any real shift: both are (∑ e^{sᵢ}·vᵢ) / (∑ e^{sᵢ}).
-/
import proofs.«137010_j85418309583437_2_alg».proof.Proof.KernelValue
import proofs.«137010_j85418309583437_2_alg».proof.Proof.RefRead
import proofs.«137010_j85418309583437_2_alg».proof.Proof.OnlineSoftmax

noncomputable section

namespace Cert.Bridge

open Idealize.ShloMosaic Idealize.ShloMosaic.ValueIdx Cert.KernelValue

/-! ## Extended reals that are real numbers -/

/-- `x` is (the image of) a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max_zero {x : EReal} (hx : IsReal x) : IsReal (max x 0) := by
  obtain ⟨a, rfl⟩ := hx
  exact ⟨max a 0, by rw [← EReal.coe_zero, Cert.Pooling.coe_max']⟩

theorem IsReal.sum {ι : Type} [Fintype ι] (f : ι → EReal) (h : ∀ i, IsReal (f i)) : IsReal (∑ i, f i) := by
  choose g hg using h
  exact ⟨∑ i, g i, (Finset.sum_congr rfl fun i _ => hg i).trans (Cert.Pooling.coe_sum' Finset.univ g).symm⟩

/-- Finite inputs give real scores. -/
theorem rowScore_real (q : Cert.KernelIdeal.S32768x128.Idx → EReal) (k : Cert.KernelIdeal.S32768x8x128.Idx → EReal)
    (wq wk : Cert.KernelIdeal.S128x512.Idx → EReal) (w2 : Cert.KernelIdeal.S1x512.Idx → EReal)
    (hq : ∀ i, IsReal (q i)) (hk : ∀ i, IsReal (k i)) (hwq : ∀ i, IsReal (wq i)) (hwk : ∀ i, IsReal (wk i))
    (hw2 : ∀ i, IsReal (w2 i)) (b : Fin 32768) (i : Fin 8) : IsReal (rowScore q k wq wk w2 b i) := by
  unfold rowScore
  exact IsReal.sum _ fun h =>
    ((IsReal.sum _ fun j => (hq _).mul (hwq _)).add (IsReal.sum _ fun j => (hk _).mul (hwk _))).max_zero.mul (hw2 _)

/-! ## The two programs' scores -/

/-- The reference's score (one 256-feature contraction of the concatenation) is the kernel's (two 128-feature
    contractions against the two transposed halves of W1). -/
theorem score_eq (q : Cert.KernelIdeal.S32768x128.Idx → EReal) (k : Cert.KernelIdeal.S32768x8x128.Idx → EReal)
    (W1 : Cert.KernelIdeal.S512x256.Idx → EReal) (W2 : Cert.KernelIdeal.S1x512.Idx → EReal)
    (wq wk : Cert.KernelIdeal.S128x512.Idx → EReal)
    (hwq : ∀ (j : Fin 128) (h : Fin 512), wq (ix2 j h) = W1 (ix2 h (Fin.castAdd 128 j : Fin 256)))
    (hwk : ∀ (j : Fin 128) (h : Fin 512), wk (ix2 j h) = W1 (ix2 h (Fin.natAdd 128 j : Fin 256)))
    (b : Fin 32768) (i : Fin 8) :
    Cert.RefRead.score q k W1 W2 b i = rowScore q k wq wk W2 b i := by
  unfold Cert.RefRead.score rowScore
  refine Finset.sum_congr rfl fun h _ => ?_
  have key : (∑ j : Fin 256, Cert.RefRead.cat q k b i j * W1 (ix2 h j))
      = (∑ j : Fin 128, q (ix2 b j) * wq (ix2 j h)) + ∑ j : Fin 128, k (ix3 b i j) * wk (ix2 j h) := by
    refine (Fin.sum_univ_add (a := 128) (b := 128) (fun j : Fin (128 + 128) => Cert.RefRead.cat q k b i j * W1 (ix2 h j))).trans ?_
    refine congrArg₂ (· + ·) (Finset.sum_congr rfl fun j _ => ?_) (Finset.sum_congr rfl fun j _ => ?_)
    · rw [hwq]
      unfold Cert.RefRead.cat
      rw [dif_pos (show (Fin.castAdd 128 j).val < 128 from j.isLt)]
      rfl
    · rw [hwk]
      unfold Cert.RefRead.cat
      rw [dif_neg (show ¬ (Fin.natAdd 128 j).val < 128 from by simp [Fin.natAdd])]
      refine congrArg (· * _) (congrArg k (congrArg (ix3 b i) (Fin.ext ?_)))
      show 128 + j.val - 128 = j.val
      omega
  rw [key]

/-! ## The two results -/

/-- With finite inputs, the reference's result array is the kernel's pooled array. -/
theorem result_eq (q : Cert.KernelIdeal.S32768x128.Idx → EReal) (k v : Cert.KernelIdeal.S32768x8x128.Idx → EReal)
    (W1 : Cert.KernelIdeal.S512x256.Idx → EReal) (W2 : Cert.KernelIdeal.S1x512.Idx → EReal)
    (wq wk : Cert.KernelIdeal.S128x512.Idx → EReal)
    (hwq : ∀ (j : Fin 128) (h : Fin 512), wq (ix2 j h) = W1 (ix2 h (Fin.castAdd 128 j : Fin 256)))
    (hwk : ∀ (j : Fin 128) (h : Fin 512), wk (ix2 j h) = W1 (ix2 h (Fin.natAdd 128 j : Fin 256)))
    (hq : ∀ i, IsReal (q i)) (hk : ∀ i, IsReal (k i)) (hv : ∀ i, IsReal (v i)) (hW1 : ∀ i, IsReal (W1 i))
    (hW2 : ∀ i, IsReal (W2 i)) :
    Cert.ReferenceIdeal.Read.val_main_v19 (F := Ideal) q k v W1 W2 = pooled q k v wq wk W2 := by
  funext y
  obtain ⟨b, d, rfl⟩ : ∃ (b : Fin 32768) (d : Fin 128), y = ix2 b d := ⟨y 0, y 1, eq_ix2 y⟩
  rw [Cert.RefRead.ref_apply]
  show _ = Cert.Pooling.online (fun i => rowScore q k wq wk W2 b i) (fun i => v (ix3 b i d))
  have hwqr : ∀ i, IsReal (wq i) := fun i => by
    obtain ⟨j, h, rfl⟩ : ∃ (j : Fin 128) (h : Fin 512), i = ix2 j h := ⟨i 0, i 1, eq_ix2 i⟩
    rw [hwq]; exact hW1 _
  have hwkr : ∀ i, IsReal (wk i) := fun i => by
    obtain ⟨j, h, rfl⟩ : ∃ (j : Fin 128) (h : Fin 512), i = ix2 j h := ⟨i 0, i 1, eq_ix2 i⟩
    rw [hwk]; exact hW1 _
  choose s hs using fun i => rowScore_real q k wq wk W2 hq hk hwqr hwkr hW2 b i
  choose u hu using fun i : Fin 8 => hv (ix3 b i d)
  have hsc : ∀ i, Cert.RefRead.score q k W1 W2 b i = (s i : EReal) := fun i =>
    (score_eq q k W1 W2 wq wk hwq hwk b i).trans (hs i)
  obtain ⟨M, hM⟩ := Cert.RefRead.shift_real q k W1 W2 b fun i => ⟨s i, hsc i⟩
  simp only [hsc, hM, hu, zero_add]
  rw [show (fun i => rowScore q k wq wk W2 b i) = fun i => (s i : EReal) from funext hs]
  exact (Cert.Pooling.online_eq_twoPass s u M).symm

end Cert.Bridge

end
-- ==== Proof.Finite.lean ====
/-
  From the precondition to real entries.

  The precondition is the conjunction, over the five argument arrays, of "every entry x has |x| < +∞", each taken as an
  all-reduction of the entrywise comparison. On the extended reals |x| = max x (−x), and max x (−x) < +∞ excludes both
  x = +∞ and x = −∞ (whose negation is +∞): so every entry is a real number.
-/
import proofs.«137010_j85418309583437_2_alg».proof.Defs
import proofs.«137010_j85418309583437_2_alg».proof.Proof.Gen.Pre_finite_inputs
import Idealize.ShloMosaic.Lib.ReduceAll
import Idealize.ShloMosaic.Lib.ValueIdx

noncomputable section
namespace Cert.Finite
open Idealize.ShloMosaic Idealize.SL.Sem

/-- The shape of rank 0 has exactly one index: there is no axis to choose a coordinate on. -/
instance subsingleton_scalar_idx : Subsingleton (⟨0, ![]⟩ : Shape).Idx :=
  ⟨fun a b => funext fun d => d.elim0⟩

/-- The f32 pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max x (-x)` is strictly below `+∞` is a real number:
    at `⊥` and at `⊤` the absolute value is `⊤`, and `⊤ < ⊤` fails. -/
theorem real_of_abs_lt_inf (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- One conjunct of the precondition, at any shape `s`: if the conjunction over all of `s` of the
    comparisons `|x i| < +∞` is 1, every entry `x i` is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, x i = (r : EReal) :=
  real_of_abs_lt_inf (x i) (Host.reduce_andi_all _ _ hr hu ValueIdx.ix0 e i)

/-- under the precondition every entry of the five argument arrays is a real -/
theorem real_entries [Cert.Pre_finite_inputs.Facts]
    (a0 : FVec Ideal Cert.Pre_finite_inputs.S32768x128 .f32)
    (a1 a2 : FVec Ideal Cert.Pre_finite_inputs.S32768x8x128 .f32)
    (a3 : FVec Ideal Cert.Pre_finite_inputs.S512x256 .f32)
    (a4 : FVec Ideal Cert.Pre_finite_inputs.S1x512 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal))
      ∧ (∀ i, ∃ r : ℝ, a4 i = (r : EReal)) := by
  have h0 := congrFun h ValueIdx.ix0
  dsimp only [Cert.Pre_finite_inputs.fn, Cert.Pre_finite_inputs.fn_part1, andi] at h0
  rw [IntOp.andi_eq_one, IntOp.andi_eq_one, IntOp.andi_eq_one, IntOp.andi_eq_one] at h0
  obtain ⟨⟨⟨⟨e0, e1⟩, e2⟩, e3⟩, e4⟩ := h0
  exact ⟨real_of_all a0 _ _ _ e0, real_of_all a1 _ _ _ e1, real_of_all a2 _ _ _ e2,
    real_of_all a3 _ _ _ e3, real_of_all a4 _ _ _ e4⟩

end Cert.Finite
-- ==== Proof.lean ====
/-
  Attention pooling over eight hops: a fused one-pass kernel against the two-pass reference, on the extended reals.

  For each of the 32768 rows b the programs form eight scores  s_i = ∑ₕ relu(⟨[q_b ; k_{b,i}], W1[h,·]⟩) · W2[0,h]  and
  return the softmax-weighted mean of the eight value rows:  out[b,d] = ∑ᵢ softmax(s)ᵢ · v[b,i,d].
  The reference computes the scores by one 256-feature contraction of the concatenation, then the softmax in two passes
  (subtract the maximum, exponentiate, normalise) and the weighted sum. The kernel works on blocks of 1024 rows, splits the
  contraction into a shared 128-feature part and a per-hop 128-feature part against the two transposed halves of W1,
  and threads a running maximum, normaliser and weighted sum through the hops in one pass, dividing once at the end.
  With finite inputs every score is a real number, and both results are  (∑ᵢ e^{sᵢ}·v[b,i,d]) / (∑ᵢ e^{sᵢ}).

  The idealization rewrote nothing, so `preserves` is trivial; the two kernel frames are the generated frame runs, the
  reference's frame is its generated run with the result dropped; `algebraic` puts the kernel's run (the result array
  as the pooled array of the arguments) beside the reference's run read at an index, and the law above joins them.
-/
import proofs.«137010_j85418309583437_2_alg».proof.Defs
import proofs.«137010_j85418309583437_2_alg».proof.Proof.Gen.Kernel
import proofs.«137010_j85418309583437_2_alg».proof.Proof.Gen.Kernel.Skeleton
import proofs.«137010_j85418309583437_2_alg».proof.Proof.Gen.Kernel.Launch
import proofs.«137010_j85418309583437_2_alg».proof.Proof.Gen.Kernel.Points
import proofs.«137010_j85418309583437_2_alg».proof.Proof.Gen.Kernel.Frame
import proofs.«137010_j85418309583437_2_alg».proof.Proof.Gen.KernelIdeal
import proofs.«137010_j85418309583437_2_alg».proof.Proof.Gen.KernelIdeal.Skeleton
import proofs.«137010_j85418309583437_2_alg».proof.Proof.Gen.KernelIdeal.Launch
import proofs.«137010_j85418309583437_2_alg».proof.Proof.Gen.KernelIdeal.Points
import proofs.«137010_j85418309583437_2_alg».proof.Proof.Gen.KernelIdeal.Frame
import proofs.«137010_j85418309583437_2_alg».proof.Proof.Gen.ReferenceIdeal
import proofs.«137010_j85418309583437_2_alg».proof.Proof.Gen.Pre_finite_inputs
import proofs.«137010_j85418309583437_2_alg».proof.Proof.Gen.ReferenceIdeal.Run
import proofs.«137010_j85418309583437_2_alg».proof.Proof.Gen.ReferenceIdeal.Read
import proofs.«137010_j85418309583437_2_alg».proof.Proof.KernelRun
import proofs.«137010_j85418309583437_2_alg».proof.Proof.Bridge
import proofs.«137010_j85418309583437_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the finite arguments, the kernel's result array (the pooled array of the arguments) is
    the reference's (its run read index by index: the two-pass softmax-weighted sum over the same scores). -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2.1,
    (hagree c).2.2.2.2]
  obtain ⟨h0, h1, h2, h3, h4⟩ := Cert.Finite.real_entries _ _ _ _ _ (hpre c)
  exact Cert.Bridge.result_eq _ _ _ _ _ _ _ (Cert.KernelValue.wq_apply m c) (Cert.KernelValue.wk_apply m c) h0 h1 h2 h3 h4

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
